-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn_part1 {F : FTy → Type} [FloatOps F] (main_v13 : IVec S_ 1) (main_v16 : IVec S4x8192 1) : IVec S_ 1 :=
  let main_c_5 : IVec S_ 1 := constantI S_ 1 1#1
  let main_v17 : IVec S_ 1 := (fun x v => Host.reduce IntOp.andi x v reducesTo_S4x8192_S_d0_1 h_S_) main_v16 main_c_5
  let main_v18 : IVec S_ 1 := andi main_v13 main_v17
  main_v18

def fn {F : FTy → Type} [FloatOps F] (main_arg0 : FVec F S4x8192 .f32) (main_arg1 : FVec F S4x8192 .f32) (main_arg2 : FVec F S4x8192 .f32) (main_arg3 : FVec F S4x8192 .f32) (main_arg4 : IVec S4x8192 1) : IVec S_ 1 :=
  let main_v0 : FVec F S4x8192 .f32 := Host.absf main_arg0
  let main_cst : FVec F S_ .f32 := constant S_ .f32 0x7F800000#32
  let main_v1 : FVec F S4x8192 .f32 := broadcastInDim S4x8192 ![] bcast_S_S4x8192 main_cst
  let main_v2 : IVec S4x8192 1 := cmpf .olt main_v0 main_v1
  let main_c : IVec S_ 1 := constantI S_ 1 1#1
  let main_v3 : IVec S_ 1 := (fun x v => Host.reduce IntOp.andi x v reducesTo_S4x8192_S_d0_1 h_S_) main_v2 main_c
  let main_v4 : FVec F S4x8192 .f32 := Host.absf main_arg1
  let main_cst_0 : FVec F S_ .f32 := constant S_ .f32 0x7F800000#32
  let main_v5 : FVec F S4x8192 .f32 := broadcastInDim S4x8192 ![] bcast_S_S4x8192 main_cst_0
  let main_v6 : IVec S4x8192 1 := cmpf .olt main_v4 main_v5
  let main_c_1 : IVec S_ 1 := constantI S_ 1 1#1
  let main_v7 : IVec S_ 1 := (fun x v => Host.reduce IntOp.andi x v reducesTo_S4x8192_S_d0_1 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_v14 : FVec F S4x8192 .f32 := Host.absf main_arg3
  let main_cst_4 : FVec F S_ .f32 := constant S_ .f32 0x7F800000#32
  let main_v15 : FVec F S4x8192 .f32 := broadcastInDim S4x8192 ![] bcast_S_S4x8192 main_cst_4
  let main_v16 : IVec S4x8192 1 := cmpf .olt main_v14 main_v15
  fn_part1 (F := F) main_v13 main_v16
-- ==== Kernel.lean ====
abbrev S4x8192 : Shape := ⟨2, ![4, 8192]⟩
abbrev S4x256 : Shape := ⟨2, ![4, 256]⟩
abbrev S4x2048 : Shape := ⟨2, ![4, 2048]⟩
abbrev S4x512 : Shape := ⟨2, ![4, 512]⟩
abbrev S4x256x1 : Shape := ⟨3, ![4, 256, 1]⟩
abbrev S4x1x512 : Shape := ⟨3, ![4, 1, 512]⟩
abbrev S4x256x512 : Shape := ⟨3, ![4, 256, 512]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S4x8192, .f32⟩
  | .hbm, ⟨1, _⟩ => ⟨S4x8192, .f32⟩
  | .hbm, ⟨2, _⟩ => ⟨S4x8192, .f32⟩
  | .hbm, ⟨3, _⟩ => ⟨S4x8192, .f32⟩
  | .hbm, ⟨4, _⟩ => ⟨S4x8192, .i1⟩
  | .hbm, ⟨5, _⟩ => ⟨S4x8192, .i32⟩
  | .hbm, ⟨6, _⟩ => ⟨S_, .i32⟩
  | .hbm, ⟨7, _⟩ => ⟨S4x8192, .i32⟩
  | .hbm, ⟨8, _⟩ => ⟨S4x8192, .i1⟩
  | .hbm, ⟨9, _⟩ => ⟨S4x8192, .i1⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | .local _ .vmem, ⟨8, _⟩ => ⟨S4x256, .i32⟩
  | .local _ .vmem, ⟨9, _⟩ => ⟨S4x256, .i32⟩
  | .local _ .vmem, ⟨10, _⟩ => ⟨S4x256, .f32⟩
  | _, _ => ⟨S4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def k0_mult1 : BitVec 32 :=
  let c0_i32_4 : BitVec 32 := 0#32
  let c512_i32 : BitVec 32 := 512#32
  let v6 : BitVec 32 := Scalar.muli c0_i32_4 c512_i32
  v6
def k0_off1 (c0_i32_4 : BitVec 32) : Fin 2 → Nat :=
  let c0_5 : Index := 0#32
  let c512_i32 : BitVec 32 := 512#32
  let v6 : BitVec 32 := Scalar.muli c0_i32_4 c512_i32
  let v7 : BitVec 32 := v6
  let v8 : Index := Scalar.indexCast v7
  ![0, v8.toNat]
def k0_mult2 : BitVec 32 :=
  let c1_i32 : BitVec 32 := 1#32
  let c512_i32_11 : BitVec 32 := 512#32
  let v32 : BitVec 32 := Scalar.muli c1_i32 c512_i32_11
  v32
def k0_mult3 : BitVec 32 :=
  let c2_i32 : BitVec 32 := 2#32
  let c512_i32_18 : BitVec 32 := 512#32
  let v58 : BitVec 32 := Scalar.muli c2_i32 c512_i32_18
  v58
def k0_mult4 : BitVec 32 :=
  let c3_i32 : BitVec 32 := 3#32
  let c512_i32_25 : BitVec 32 := 512#32
  let v84 : BitVec 32 := Scalar.muli c3_i32 c512_i32_25
  v84
def k0_cond2 (i : grid0.Coords) : BitVec 1 :=
  let arg1 : BitVec 32 := BitVec.ofNat 32 (i 1).val
  let c3_i32_36 : BitVec 32 := 3#32
  let v115 : BitVec 1 := Scalar.cmpi .eq arg1 c3_i32_36
  let v116 : BitVec 32 := Scalar.extui v115
  let c0_i32_37 : BitVec 32 := 0#32
  let v117 : BitVec 1 := Scalar.cmpi .ne v116 c0_i32_37
  v117

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S4x256_S4x256_0_0 : ∀ a, (![0, 0] : Fin 2 → Nat) a + S4x256.size a ≤ S4x256.size a
  h_S4x256 : 0 < S4x256.numel
  shapeCasts_S4x256_S4x256 : S4x256.ShapeCasts S4x256
  h_S4x512 : 0 < S4x512.numel
  shapeCasts_S4x256_S4x256x1 : S4x256.ShapeCasts S4x256x1
  shapeCasts_S4x512_S4x1x512 : S4x512.ShapeCasts S4x1x512
  broadcasts_S4x256x1_S4x256x512 : S4x256x1.Broadcasts S4x256x512
  broadcasts_S4x1x512_S4x256x512 : S4x1x512.Broadcasts S4x256x512
  reduces_S4x256x512_S4x256 : S4x256x512.Reduces [2] S4x256
  natLt_1_32 : 1 < 32
  bcast_S_S4x8192 : S_.BroadcastsInDim S4x8192 (![] : Fin 0 → Fin S4x8192.rank)
  hrank0 : 0 < grid0.rank
  k0_mult1_dvd : 512 ∣ k0_mult1.toNat
  k0_off1_inb : ∀ (r : Fin 4), ∀ a, (k0_off1 (BitVec.ofNat 32 r.val)) a + S4x512.size a ≤ S4x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256.size a ≤ S4x8192.size a
  hwx0_0 : ∀ i : grid0.Coords, EltTy.bits .f32 = 32 ∨ (Rect.block (s := S4x8192) S4x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x8192.size a
  hwx0_1 : ∀ i : grid0.Coords, EltTy.bits .f32 = 32 ∨ (Rect.block (s := S4x8192) S4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x8192.size a
  hwx0_2 : ∀ i : grid0.Coords, EltTy.bits .f32 = 32 ∨ (Rect.block (s := S4x8192) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x8192.size a
  hwx0_3 : ∀ i : grid0.Coords, EltTy.bits .f32 = 32 ∨ (Rect.block (s := S4x8192) S4x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x8192.size a
  hwx0_4 : ∀ i : grid0.Coords, EltTy.bits .i32 = 32 ∨ (Rect.block (s := S4x8192) S4x256.size (cc0_transform_4 i) (hinb0_4 i)).WholeWords (EltTy.packing .i32)

variable [Facts₀]

abbrev win0_0 : Pipeline.Window sig grid0 :=
  Pipeline.Window.ofSpec (Memref.whole main_arg2) S4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x8192, .f32⟩
  | .hbm, ⟨1, _⟩ => ⟨S4x8192, .f32⟩
  | .hbm, ⟨2, _⟩ => ⟨S4x8192, .f32⟩
  | .hbm, ⟨3, _⟩ => ⟨S4x8192, .f32⟩
  | .hbm, ⟨4, _⟩ => ⟨S4x8192, .i1⟩
  | .hbm, ⟨5, _⟩ => ⟨S4x8192x1, .f32⟩
  | .hbm, ⟨6, _⟩ => ⟨S4x1x8192, .f32⟩
  | .hbm, ⟨7, _⟩ => ⟨S4x8192x8192, .f32⟩
  | .hbm, ⟨8, _⟩ => ⟨S4x8192x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .i1⟩
  | .hbm, ⟨21, _⟩ => ⟨S4x8192x8192, .i32⟩
  | .hbm, ⟨22, _⟩ => ⟨S_, .i32⟩
  | .hbm, ⟨23, _⟩ => ⟨S4x8192, .i32⟩
  | .hbm, ⟨24, _⟩ => ⟨S_, .i32⟩
  | .hbm, ⟨25, _⟩ => ⟨S4x8192, .i32⟩
  | .hbm, ⟨26, _⟩ => ⟨S4x8192, .i1⟩
  | .hbm, ⟨27, _⟩ => ⟨S4x8192, .i1⟩
  | _, _ => ⟨S4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  natLt_1_32 : 1 < 32
  reducesTo_S4x8192x8192_S4x8192_d2 : S4x8192x8192.ReducesTo [2] S4x8192
  h_S_ : 0 < S_.numel
  bcast_S_S4x8192 : S_.BroadcastsInDim S4x8192 (![] : Fin 0 → Fin S4x8192.rank)

variable [Facts₀]

class Facts : Prop extends Facts₀ where

variable [Facts]
-- ==== Proof.BBody.lean ====
/-
  The kernel body at one grid point.

  A grid point is a row tile of 256 points and a column block of 2048 points of the four rows.  The body adds to a running
  count, kept in a scratch buffer, the number of the column block's points within the radius of each point of the row
  tile, 512 columns at a time (`upd`).  Two conditions on the point's column block select one of three cases: at a row
  tile's first column block the count is reset before the addition; at its last the finished count is compared with eight
  and the output block written; in between the output block is left untouched.  Each case is one statement: from the six
  buffers at given contents the body runs to the same buffers at the stated contents.
-/
import proofs.«152392_j21878563405909_2_alg».proof.Proof.Gen.Kernel.Launch
import proofs.«152392_j21878563405909_2_alg».proof.Proof.Gen.Kernel.Skeleton
import proofs.«152392_j21878563405909_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch: this is the first column block of a row tile (grid coordinate 1 is 0). -/
abbrev condZ (i : grid0.Coords) : Prop := (Scalar.cmpi .ne (Scalar.extui (Scalar.cmpi .eq (BitVec.ofNat 32 (i 1).val) 0#32)) 0#32) = 1#1
/-- The body's second branch: this is the last column block of a row tile (grid coordinate 1 is 3). -/
abbrev condL (i : grid0.Coords) : Prop := k0_cond2 i = 1#1

/-- The 512 consecutive columns of a 2048-column block that start at column `off`. -/
def slc (off : Nat) (h : ∀ a, (![0, off] : Fin 2 → Nat) a + S4x512.size a ≤ S4x2048.size a) (X : Vec F S4x2048 .f32) : Vec F S4x512 .f32 :=
  View.ld X (Rect.unit (s := S4x2048) ![0, off] S4x512.size h)

theorem inb0 : ∀ a, (![0, 0] : Fin 2 → Nat) a + S4x512.size a ≤ S4x2048.size a := by decide
theorem inb1 : ∀ a, (![0, 512] : Fin 2 → Nat) a + S4x512.size a ≤ S4x2048.size a := by decide
theorem inb2 : ∀ a, (![0, 1024] : Fin 2 → Nat) a + S4x512.size a ≤ S4x2048.size a := by decide
theorem inb3 : ∀ a, (![0, 1536] : Fin 2 → Nat) a + S4x512.size a ≤ S4x2048.size a := by decide

/-- One grid step's update of the running count `s`: `s` plus the counts over the four 512-column sub-slices of the
    column block, for the row tile `xr, yr`. -/
def upd (xr yr : Vec F S4x256 .f32) (xc yc : Vec F S4x2048 .f32) (s : Vec F S4x256 .f32) : Vec F S4x256 .f32 :=
  k0_pay1 xr yr (k0_pay5 xr yr (k0_pay4 xr yr (slc 0 inb0 xc) (slc 0 inb0 yc)) (slc 512 inb1 xc) (slc 512 inb1 yc) (slc 1024 inb2 xc) (slc 1024 inb2 yc)) (slc 1536 inb3 xc) (slc 1536 inb3 yc) s

theorem hz2 : (![0, 0] : Fin 2 → Nat) = fun _ => 0 := by funext a; fin_cases a <;> rfl

set_option maxHeartbeats 4000000 in
/-- At the first column block of a row tile the running count is reset, then the block's counts are added; the output block is left as found. -/
theorem body_first (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x2048 .f32) (harg4 : arg4.IsWhole) (arg5 : Memref sig .tc .vmem S4x2048 .f32) (harg5 : arg5.IsWhole) (arg6 : Memref sig .tc .vmem S4x256 .i32) (harg6 : arg6.IsWhole) (arg7 : Memref sig .tc .vmem S4x256 .f32) (harg7 : arg7.IsWhole)
    (hc1 : condZ i) (hc2 : ¬condL i)
    (xr yr : Vec F S4x256 .f32) (xc yc : Vec F S4x2048 .f32) (o : Vec F S4x256 .i32) (s : Vec F S4x256 .f32)
    (E : Set ℕ) (K : PUnit → sProp 𝕄) :
    iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare s
        ∗ (iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare (upd xr yr xc yc (k0_pay3 (F := F)))) -∗ K ⟨⟩))
      ⊢ wp frame (wpE (defs₀ (F := F)) Variants.none c none) E (cc0__radius_count_kernel i arg2 harg2 arg3 harg3 arg4 harg4 arg5 harg5 arg6 harg6 arg7 harg7) K := by
  simp only [cc0__radius_count_kernel_eq_skeleton]; unfold cc0__radius_count_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H7
  ipureintro
  sl_unfold_words
  rw [View.read_writes_eq_canon _ _ _ (fun y => ⟨_, List.mem_cons_self, View.mem_set_unit_zero hz2 Facts₀.inb_S4x256_S4x256_0_0 y⟩), View.canon_cons_unit_zero hz2]
  simp only [View.readAt_eq_ld, hf2, hf3, hf4, hf5, hf7, View.ld_unit_zero (S := S4x256) hz2, View.readCov_unit_zero (S := S4x256) arg7.view hz2 Facts₀.inb_S4x256_S4x256_0_0]
  rfl

set_option maxHeartbeats 4000000 in
/-- At a middle column block the block's counts are added to the running count; the output block is left as found. -/
theorem body_mid (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x2048 .f32) (harg4 : arg4.IsWhole) (arg5 : Memref sig .tc .vmem S4x2048 .f32) (harg5 : arg5.IsWhole) (arg6 : Memref sig .tc .vmem S4x256 .i32) (harg6 : arg6.IsWhole) (arg7 : Memref sig .tc .vmem S4x256 .f32) (harg7 : arg7.IsWhole)
    (hc1 : ¬condZ i) (hc2 : ¬condL i)
    (xr yr : Vec F S4x256 .f32) (xc yc : Vec F S4x2048 .f32) (o : Vec F S4x256 .i32) (s : Vec F S4x256 .f32)
    (E : Set ℕ) (K : PUnit → sProp 𝕄) :
    iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare s
        ∗ (iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare (upd xr yr xc yc s)) -∗ K ⟨⟩))
      ⊢ wp frame (wpE (defs₀ (F := F)) Variants.none c none) E (cc0__radius_count_kernel i arg2 harg2 arg3 harg3 arg4 harg4 arg5 harg5 arg6 harg6 arg7 harg7) K := by
  simp only [cc0__radius_count_kernel_eq_skeleton]; unfold cc0__radius_count_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H7
  ipureintro
  sl_unfold_words
  rw [View.read_writes_eq_canon _ _ _ (fun y => ⟨_, List.mem_cons_self, View.mem_set_unit_zero hz2 Facts₀.inb_S4x256_S4x256_0_0 y⟩), View.canon_cons_unit_zero hz2]
  simp only [View.readAt_eq_ld, hf2, hf3, hf4, hf5, hf7, View.ld_unit_zero (S := S4x256) hz2, View.readCov_unit_zero (S := S4x256) arg7.view hz2 Facts₀.inb_S4x256_S4x256_0_0]
  rfl

set_option maxHeartbeats 4000000 in
/-- At the last column block the block's counts are added and the output block is written: one where the finished count exceeds eight, zero elsewhere. -/
theorem body_last (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x2048 .f32) (harg4 : arg4.IsWhole) (arg5 : Memref sig .tc .vmem S4x2048 .f32) (harg5 : arg5.IsWhole) (arg6 : Memref sig .tc .vmem S4x256 .i32) (harg6 : arg6.IsWhole) (arg7 : Memref sig .tc .vmem S4x256 .f32) (harg7 : arg7.IsWhole)
    (hc1 : ¬condZ i) (hc2 : condL i)
    (xr yr : Vec F S4x256 .f32) (xc yc : Vec F S4x2048 .f32) (o : Vec F S4x256 .i32) (s : Vec F S4x256 .f32)
    (E : Set ℕ) (K : PUnit → sProp 𝕄) :
    iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare s
        ∗ (iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare (k0_pay2 (upd xr yr xc yc s)) ∗ owns (c : Thread nD τ) arg7 fullShare (upd xr yr xc yc s)) -∗ K ⟨⟩))
      ⊢ wp frame (wpE (defs₀ (F := F)) Variants.none c none) E (cc0__radius_count_kernel i arg2 harg2 arg3 harg3 arg4 harg4 arg5 harg5 arg6 harg6 arg7 harg7) K := by
  simp only [cc0__radius_count_kernel_eq_skeleton]; unfold cc0__radius_count_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    sl_unfold_words
    rw [View.read_writes_eq_canon _ _ _ (fun y => ⟨_, List.mem_cons_self, View.mem_set_unit_zero hz2 Facts₀.inb_S4x256_S4x256_0_0 y⟩), View.canon_cons_unit_zero hz2]
    simp only [View.readAt_eq_ld, hf2, hf3, hf4, hf5, hf7, View.ld_unit_zero (S := S4x256) hz2, View.readCov_unit_zero (S := S4x256) arg7.view hz2 Facts₀.inb_S4x256_S4x256_0_0]
    rfl
  iexists _; isplitr
  swap; · iexact H7
  ipureintro
  sl_unfold_words
  rw [View.read_writes_eq_canon _ _ _ (fun y => ⟨_, List.mem_cons_self, View.mem_set_unit_zero hz2 Facts₀.inb_S4x256_S4x256_0_0 y⟩), View.canon_cons_unit_zero hz2]
  simp only [View.readAt_eq_ld, hf2, hf3, hf4, hf5, hf7, View.ld_unit_zero (S := S4x256) hz2, View.readCov_unit_zero (S := S4x256) arg7.view hz2 Facts₀.inb_S4x256_S4x256_0_0]
  rfl

end Cert.Kernel.Hand

end
-- ==== Proof.BDat.lean ====
/-
  What the kernel's buffers hold point by point.

  Point `t` of the grid is column block `t mod 4` of row tile `t / 4`.  Every input buffer holds, when the body runs, its
  array's block at the point.  The running count after the body at position `n` (`accAt`) starts afresh at the first
  column block of each row tile and is carried through the tile's other three.  Between points the scratch buffer holds
  that count; the output buffer is written at a row tile's last column block only, and is handed back as found elsewhere.
  From these the body's three cases give the obligation at every point.
-/
import proofs.«152392_j21878563405909_2_alg».proof.Proof.BBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- A core's buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions over the grid: point `t` is column block `t mod 4` of row tile `t / 4` -/

theorem hcondZ : ∀ t : Fin cfg0.N, condZ (grid0.coords t) ↔ t.val % 4 = 0 :=
  (by decide +kernel : ∀ t : Fin grid0.N, condZ (grid0.coords t) ↔ t.val % 4 = 0)
theorem hcondL : ∀ t : Fin cfg0.N, condL (grid0.coords t) ↔ t.val % 4 = 3 :=
  (by decide +kernel : ∀ t : Fin grid0.N, condL (grid0.coords t) ↔ t.val % 4 = 3)

/-- The output window is idle, and not written back, away from a row tile's last column block. -/
theorem idle4 : ∀ t : Fin cfg0.N, ¬condL (grid0.coords t) → cfg0.idle 4 (grid0.coords t) = true := by decide +kernel
theorem noFlush4 : ∀ t : Fin cfg0.N, ¬condL (grid0.coords t) → (cfg0.win 4).flush t = false := by decide +kernel
theorem live4 : ∀ t : Fin cfg0.N, condL (grid0.coords t) → cfg0.idle 4 (grid0.coords t) = false := by decide +kernel

/-! ## The staging memrefs at a point -/

abbrev ms0 (t : Fin cfg0.N) : Memref sig .tc .vmem S4x256 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S4x256 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S4x2048 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S4x2048 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S4x256 .i32 := win0_4.stage (cfg0.slots t 4)
abbrev hs4 (t : Fin cfg0.N) : (ms4 t).IsWhole := Facts₀.hstage0_4 ((cfg0.slots t 4).cast Facts₀.nbuf0_4)
/-- The scratch buffer that carries the running count between points. -/
abbrev scM : Memref sig .tc .vmem S4x256 .f32 := Memref.whole cc0_scratch0

/-! ## The running count point by point -/

/-- One point's update of the running count at the point's own blocks. -/
def updAt (c : Dev nD) (t : Fin cfg0.N) (s : Vec F S4x256 .f32) : Vec F S4x256 .f32 :=
  upd (iblk m c 0 t) (iblk m c 1 t) (iblk m c 2 t) (iblk m c 3 t) s

/-- The running count after the body at position `n`: reset at the first column block of each row tile, carried on
    through the tile's other column blocks. -/
def accAt (c : Dev nD) : (n : ℕ) → n < cfg0.N → Vec F S4x256 .f32
  | 0, hn => updAt m c ⟨0, hn⟩ (k0_pay3 (F := F))
  | n + 1, hn =>
    if (n + 1) % 4 = 0 then updAt m c ⟨n + 1, hn⟩ (k0_pay3 (F := F))
    else updAt m c ⟨n + 1, hn⟩ (accAt c n (Nat.lt_of_succ_lt hn))

theorem accAt_first (c : Dev nD) (t : Fin cfg0.N) (h0 : t.val % 4 = 0) :
    accAt m c t.val t.isLt = updAt m c t (k0_pay3 (F := F)) := by
  obtain ⟨n, hn⟩ := t
  cases n with
  | zero => rfl
  | succ n => exact if_pos h0

theorem accAt_next (c : Dev nD) (t : Fin cfg0.N) (h0 : ¬t.val % 4 = 0) :
    accAt m c t.val t.isLt = updAt m c t (accAt m c (t.val - 1) (Nat.lt_of_le_of_lt (Nat.sub_le _ _) t.isLt)) := by
  obtain ⟨n, hn⟩ := t
  cases n with
  | zero => exact absurd (Nat.zero_mod _) h0
  | succ n => exact if_neg h0

/-! ## The region invariant: the scratch at the running count -/

/-- Before position `n`: at the region's entry the scoped rest (the scratch at anything); afterwards the scratch at the
    running count the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped rest is the scratch owned at some contents. -/
theorem scopedRest_scM (c : Dev nD) :
    (Pipeline.scopedRest spec0 c : sProp 𝕄) = iprop(∃ d, owns (c : Thread nD τ) scM fullShare d) := by
  rw [scopedRest0_eq]; simp only [scM, owns_whole]; try rfl

/-! ## The pipeline's proof data -/

/-- The arrays as the region finds them; every input's buffer left at its block; the output's buffer, at a row tile's
    last column block, at the indicator of the finished count exceeding eight; the two windows on one array share it
    half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (accAt m c t.val t.isLt)
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (accAt m c t.val t.isLt) := by dsimp only [dats]

/-- An input window's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  rw [← after_0]
theorem leaves_1 (c : Dev nD) (t : Fin cfg0.N) : (dats m 0 c).leavesExact 1 t = owns (c : Thread nD τ) (ms1 t) fullShare (iblk m c 1 t) := by
  rw [← after_1]
theorem leaves_2 (c : Dev nD) (t : Fin cfg0.N) : (dats m 0 c).leavesExact 2 t = owns (c : Thread nD τ) (ms2 t) fullShare (iblk m c 2 t) := by
  rw [← after_2]
theorem leaves_3 (c : Dev nD) (t : Fin cfg0.N) : (dats m 0 c).leavesExact 3 t = owns (c : Thread nD τ) (ms3 t) fullShare (iblk m c 3 t) := by
  rw [← after_3]

set_option maxHeartbeats 4000000 in
/-- The body at any point: the case is read off the point's position in its row tile; the invariant hands the body the
    scratch at what the point before left (at anything at a tile's first column block, where the body resets it) and
    takes it back at this point's running count. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3]
  have hN : t.val < 128 := lt_of_lt_of_eq t.isLt (show cfg0.N = 128 from N_0)
  by_cases h0 : t.val % 4 = 0
  · have h3 : ¬t.val % 4 = 3 := by omega
    have hL : ¬condL (grid0.coords t) := fun h => h3 ((hcondL t).mp h)
    rw [Dat.leavesExact_idle (dats m 0 c) 4 t (idle4 t hL) (noFlush4 t hL), accAt_first m c t h0]
    have hS : (dats m 0 c).Φ t.castSucc ⊢ (iprop(∃ d, owns (c : Thread nD τ) scM fullShare d) : sProp 𝕄) := by
      rw [PhiS_castSucc m c t]
      by_cases hz : t.val = 0
      · rw [PhiS_zero m c _ _ hz, scopedRest_scM]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS' := hS $$ HS
    icases HS' with ⟨%s, HS⟩
    iapply (body_first c (grid0.coords t) _ _ _ _ _ _ _ _ _ _ _ _ ((hcondZ t).mpr h0) hL (iblk m c 0 t) (iblk m c 1 t) (iblk m c 2 t) (iblk m c 3 t) _ s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexists _; iexact H4
  · have hZ : ¬condZ (grid0.coords t) := fun h => h0 ((hcondZ t).mp h)
    have hz : t.val ≠ 0 := fun e => h0 (by rw [e])
    rw [PhiS_castSucc m c t, PhiS_pos m c _ _ hz, accAt_next m c t h0]
    by_cases h3 : t.val % 4 = 3
    · have hL : condL (grid0.coords t) := (hcondL t).mpr h3
      rw [show (dats m 0 c).leavesExact 4 t = owns (c : Thread nD τ) (ms4 t) fullShare ((dats m 0 c).after 4 t) from by
        unfold Dat.leavesExact; rw [live4 t hL], after_4, accAt_next m c t h0]
      iintro ⟨HS, Ho, ⟨%d0, H0⟩, ⟨%d1, H1⟩, ⟨%d2, H2⟩, ⟨%d3, H3⟩, ⟨%d4, H4⟩⟩
      iapply (body_last c (grid0.coords t) _ _ _ _ _ _ _ _ _ _ _ _ hZ hL (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hL : ¬condL (grid0.coords t) := fun h => h3 ((hcondL t).mp h)
      rw [Dat.leavesExact_idle (dats m 0 c) 4 t (idle4 t hL) (noFlush4 t hL)]
      iintro ⟨HS, Ho, ⟨%d0, H0⟩, ⟨%d1, H1⟩, ⟨%d2, H2⟩, ⟨%d3, H3⟩, ⟨%d4, H4⟩⟩
      iapply (body_mid c (grid0.coords t) _ _ _ _ _ _ _ _ _ _ _ _ hZ hL (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BLaunch.lean ====
/-
  The run of the whole program around the kernel.

  The kernel reads the x array through two windows (row tiles and column blocks) and the y array likewise: at entry each
  of the two arrays, held whole, is dealt half and half to its two windows, and the result array whole to the output
  window.  After the region four host operations compare the kernel's words with zero and AND the incoming mask; they
  touch the result array and buffers the kernel never sees, so the input windows' halves stay aside while they run.  The
  run ends with every window's array at the contents the write-backs left and every other buffer at what the host
  operations computed; in particular the five arguments end as they began.
-/
import proofs.«152392_j21878563405909_2_alg».proof.Proof.BDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window: the two arrays handed over twice are held half and half -/

theorem arrays_eq5 (c : Dev nD) (Fv : (w : Fin cfg0.W) → Buf (Elt F) ((cfg0.win w).arr.view.loc (c.tc : Thread nD τ))) :
    ((dats m 0 c).arrays Fv : sProp 𝕄)
      = iprop((((c.tc : Thread nD τ).loc main_arg2) ↦{fullShare.left} Fv 0) ∗ (((c.tc : Thread nD τ).loc main_arg1) ↦{fullShare.left} Fv 1)
          ∗ (((c.tc : Thread nD τ).loc main_arg2) ↦{fullShare.right} Fv 2) ∗ (((c.tc : Thread nD τ).loc main_arg1) ↦{fullShare.right} Fv 3)
          ∗ (((c.tc : Thread nD τ).loc main_v0) ↦{fullShare} Fv 4)) := by
  unfold Dat.arrays; rw [bigSep_W0]
  simp only [Memref.view_whole, View.set_whole]
  rfl

/-- The three distinct buffers behind the five windows. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_arg2) ↦{fullShare} Vv main_arg2) ∗ (((c.tc : Thread nD τ).loc main_arg1) ↦{fullShare} Vv main_arg1)
          ∗ (((c.tc : Thread nD τ).loc main_v0) ↦{fullShare} Vv main_v0)) := by
  unfold Pipeline.arrBufs
  exact bigSep_eq_bigSepL_of_eq [main_arg2, main_arg1, main_v0] (by decide) (by decide) _

/-- Entry: the three buffers behind the five windows, each whole, are dealt to the windows. -/
theorem hsplit (c : Dev nD) : (Pipeline.arrBufs spec0 c (V m c) : sProp 𝕄) ⊢ (dats m 0 c).arrays ((dats m 0 c).arrAt · 0) := by
  rw [arrays_eq5]
  rw [arrBufs_eq]
  iintro ⟨H2, H1, H0⟩
  ihave H2' := (pointsTo_share (PosShare.mem_left_op_right fullShare)).1 $$ H2
  ihave H1' := (pointsTo_share (PosShare.mem_left_op_right fullShare)).1 $$ H1
  icases H2' with ⟨H2l, H2r⟩
  icases H1' with ⟨H1l, H1r⟩
  isplitl [H2l]; · iexact H2l
  isplitl [H1l]; · iexact H1l
  isplitl [H2r]; · iexact H2r
  isplitl [H1r]; · iexact H1r
  iexact H0

/-! ## The host operations after the region -/

/-- The buffers the host operations after the region touch: the kernel's result and the buffers that bypass the region. -/
abbrev tailL : List (DevRef τ sig) :=
  [Proc.devRef .tc main_v0, Proc.devRef .tc main_arg0, Proc.devRef .tc main_arg3, Proc.devRef .tc main_arg4,
   Proc.devRef .tc main_c, Proc.devRef .tc main_v1, Proc.devRef .tc main_v2, Proc.devRef .tc main_v3]
abbrev tailS : Finset (DevRef τ sig) := tailL.toFinset

theorem held_tailS (c : Dev nD) (W : Valuation τ sig (Elt F)) :
    (StableHlo.held (c.tc : Thread nD τ) tailS W : sProp 𝕄)
      = iprop((((c.tc : Thread nD τ).loc main_v0) ↦{fullShare} W (Proc.devRef .tc main_v0))
          ∗ (((c.tc : Thread nD τ).loc main_arg0) ↦{fullShare} W (Proc.devRef .tc main_arg0))
          ∗ (((c.tc : Thread nD τ).loc main_arg3) ↦{fullShare} W (Proc.devRef .tc main_arg3))
          ∗ (((c.tc : Thread nD τ).loc main_arg4) ↦{fullShare} W (Proc.devRef .tc main_arg4))
          ∗ (((c.tc : Thread nD τ).loc main_c) ↦{fullShare} W (Proc.devRef .tc main_c))
          ∗ (((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_v3) ↦{fullShare} W (Proc.devRef .tc main_v3))) := by
  unfold StableHlo.held
  exact bigSep_eq_bigSepL tailL (by decide) _

/-- The core's buffer contents at the region's exit: the kernel's result array as the write-backs left it, every
    other buffer as the region found it. -/
def Vout (c : Dev nD) : Valuation τ sig (Elt F) :=
  Function.update (V0 m c) (Proc.devRef .tc main_v0) ((dats m 0 c).arrAt 4 cfg0.N)

/-- And after the host operations that follow the region. -/
def Wout (c : Dev nD) (b : Ref sig .tc) : Buf (Elt F) ((c.tc : Thread nD τ).loc b) :=
  StableHlo.after hostOps1 (Vout m c) (Proc.devRef .tc b)

theorem Vout_v0 (c : Dev nD) : Vout m c (Proc.devRef .tc main_v0) = (dats m 0 c).arrAt 4 cfg0.N := by
  unfold Vout; exact Function.update_self ..

theorem Vout_ne (c : Dev nD) (b : Ref sig .tc) (h : b ≠ main_v0) : Vout m c (Proc.devRef .tc b) = V m c b := by
  unfold Vout; exact Function.update_of_ne (fun e => h (Proc.devRef_injective _ e)) ..

theorem hostOps1_fresh : (hostOps1 : List (HloOp τ sig (Elt F))).Forall fun op => op.fresh = ∅ := by
  simp only [List.Forall]; repeat' constructor

theorem hostOps1_tail : ∀ op ∈ (hostOps1 : List (HloOp τ sig (Elt F))), op.bufs ⊆ tailS := by
  intro op hop
  simp only [hostOps1, List.mem_cons, List.mem_nil_iff, or_false] at hop
  rcases hop with rfl | rfl | rfl | rfl
  · rw [StableHlo.nullary_bufs]; decide
  · rw [StableHlo.unary_bufs]; decide
  · rw [StableHlo.binary_bufs]; decide
  · rw [StableHlo.binary_bufs]; decide

theorem Wout_v0 (c : Dev nD) : Wout m c main_v0 = (dats m 0 c).arrAt 4 cfg0.N := by
  unfold Wout
  rw [← Vout_v0]
  after_results

set_option backward.isDefEq.respectTransparency.types false in
/-- The host operations after the region: they read the kernel's result and the mask, and write only buffers that
    bypass the region; the four input windows' halves of their arrays are framed. -/
theorem htail (c : Dev nD) (Q' : PUnit → sProp 𝕄) :
    iprop((iprop((dats m 0 c).arrays ((dats m 0 c).arrAt · cfg0.N) ∗ (Pipeline.unscopedRest (Ix := Unit) (Name := ℕ) (U := UR sig nD τ) (Lvl := ℕ) spec0 c (Wout m c))) -∗ Q' ⟨⟩)
        ∗ boundary (c.tc : Thread nD τ) ∗ (dats m 0 c).arrays ((dats m 0 c).arrAt · cfg0.N) ∗ (Pipeline.unscopedRest (Ix := Unit) (Name := ℕ) (U := UR sig nD τ) (Lvl := ℕ) spec0 c (V m c)))
      ⊢ wp frame (wpE (defs (F := F)) (Variants.lift Variants.none) (c.tc : Thread nD τ) none) Set.univ
          (Pipeline.chain [StableHlo.seq hostOps1]) Q' := by
  rw [arrays_eq5, unscopedRest0_eq, unscopedRest0_eq]
  iintro ⟨Hk, Hb, ⟨A0, A1, A2, A3, A4⟩, R0, R3, R4, Rc, R1, R2, R3'⟩
  rw [Pipeline.chain_cons, Pipeline.chain_nil]
  iapply (StableHlo.wp_seq (Variants.lift Variants.none) none Set.univ c tailS (fun _ => pure ⟨⟩) hostOps1 (hostOps1_tail)
    (fun op hop => (List.forall_iff_forall_mem.mp hostOps1_fresh) op hop) (Vout m c)) $$ [Hb A4 R0 R3 R4 Rc R1 R2 R3']
  · rw [held_tailS, Vout_v0, Vout_ne m c main_arg0 (by decide), Vout_ne m c main_arg3 (by decide), Vout_ne m c main_arg4 (by decide),
      Vout_ne m c main_c (by decide), Vout_ne m c main_v1 (by decide), Vout_ne m c main_v2 (by decide), Vout_ne m c main_v3 (by decide)]
    isplitl [Hb]; · iexact Hb
    isplitl [A4]; · iexact A4
    isplitl [R0]; · iexact R0
    isplitl [R3]; · iexact R3
    isplitl [R4]; · iexact R4
    isplitl [Rc]; · iexact Rc
    isplitl [R1]; · iexact R1
    isplitl [R2]; · iexact R2
    iexact R3'
  rw [held_tailS]
  iintro ⟨Hb, A4, R0, R3, R4, Rc, R1, R2, R3'⟩
  rw [wp_pure]
  imodintro
  iapply Hk
  isplitl [A0 A1 A2 A3 A4]
  · isplitl [A0]; · iexact A0
    isplitl [A1]; · iexact A1
    isplitl [A2]; · iexact A2
    isplitl [A3]; · iexact A3
    rw [← Wout_v0]; iexact A4
  isplitl [R0]; · iexact R0
  isplitl [R3]; · iexact R3
  isplitl [R4]; · iexact R4
  isplitl [Rc]; · iexact Rc
  isplitl [R1]; · iexact R1
  isplitl [R2]; · iexact R2
  iexact R3'

/-! ## The run -/

/-- @main is the region continued by the four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem hout (c : Dev nD) : (dats m 0 c).Φ (Fin.last cfg0.N) ⊢ (iprop(emp ∗ Pipeline.scopedRest spec0 c) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_scM]
  iintro H
  isplitr; · iempintro
  iexists _; iexact H

set_option backward.isDefEq.respectTransparency.types false in
/-- Every weakly fair execution of @main terminates; every window's array ends at the proof data's final contents and
    every buffer that bypasses the region at what the host operations after the region leave. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Wout m c b) := by
  classical
  exact Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp)) (Z := fun c => (Pipeline.unscopedRest (Ix := Unit) (Name := ℕ) (U := UR sig nD τ) (Lvl := ℕ) spec0 c (V m c))) (Z' := fun c => (Pipeline.unscopedRest (Ix := Unit) (Name := ℕ) (U := UR sig nD τ) (Lvl := ℕ) spec0 c (Wout m c)))
    (hX := fun c => by
      rw [Pipeline.unscopedRestP_none]
      iintro HU
      isplitr [HU]; · iempintro
      iexact HU)
    (hin := fun c => by
      rw [show (dats m 0 c).Φ 0 = Pipeline.scopedRest spec0 c from rfl]
      iintro ⟨-, -, Hr⟩; iexact Hr)
    (hout := hout m)
    (htail := htail m)
    (QY := fun c s => ∀ b ∈ Pipeline.restRefs sig spec0, s.mem ((c.tc : Thread nD τ).loc b) = Wout m c b)
    (hY := fun c s' => by
      iintro ⟨-, HU, HSI⟩
      unfold Pipeline.unscopedRest
      imodintro
      iapply (pointsTo_read_all (Pipeline.restRefs sig spec0) (fun b => (c.tc : Thread nD τ).loc b) (Wout m c) s')
      isplitl [HU] <;> iassumption)
    (hQ := fun s h c => ⟨(h c).1, (h c).2.2⟩)

/-! ## The frame -/

theorem Wout_arg0 (c : Dev nD) : Wout m c main_arg0 = m ((c.tc : Thread nD τ).loc main_arg0) := by
  unfold Wout; after_results; exact Vout_ne m c main_arg0 (by decide)
theorem Wout_arg3 (c : Dev nD) : Wout m c main_arg3 = m ((c.tc : Thread nD τ).loc main_arg3) := by
  unfold Wout; after_results; exact Vout_ne m c main_arg3 (by decide)
theorem Wout_arg4 (c : Dev nD) : Wout m c main_arg4 = m ((c.tc : Thread nD τ).loc main_arg4) := by
  unfold Wout; after_results; exact Vout_ne m c main_arg4 (by decide)

/-- The host operations' result: the mask and the kernel's result array compared with zero. -/
theorem Wout_v3 (c : Dev nD) :
    Wout m c main_v3 = andi (m ((c.tc : Thread nD τ).loc main_arg4))
      (cmpi .sgt ((dats m 0 c).arrAt 4 cfg0.N) (broadcastInDim S4x8192 ![] Facts₀.bcast_S_S4x8192 (constantI S_ 32 0#32))) := by
  unfold Wout; after_results
  rw [Vout_v0, Vout_ne m c main_arg4 (by decide)]
  rfl

/-- An input window's array is never written. -/
theorem arr_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- Every weakly fair execution of @main terminates and the argument arrays end as they began. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (by decide)).trans (Wout_arg0 m c),
     ((h c).1 1).trans (arr_in m c 1 rfl _),
     ((h c).1 0).trans (arr_in m c 0 rfl _),
     ((h c).2 main_arg3 (by decide)).trans (Wout_arg3 m c),
     ((h c).2 main_arg4 (by decide)).trans (Wout_arg4 m c)⟩) (run_main m ρ)

end Cert.Kernel.Hand

end
-- ==== Proof.KBody.lean ====
/-
  The kernel body at one grid point.

  A grid point is a row tile of 256 points and a column block of 2048 points of the four rows.  The body adds to a running
  count, kept in a scratch buffer, the number of the column block's points within the radius of each point of the row
  tile, 512 columns at a time (`upd`).  Two conditions on the point's column block select one of three cases: at a row
  tile's first column block the count is reset before the addition; at its last the finished count is compared with eight
  and the output block written; in between the output block is left untouched.  Each case is one statement: from the six
  buffers at given contents the body runs to the same buffers at the stated contents.
-/
import proofs.«152392_j21878563405909_2_alg».proof.Proof.Gen.KernelIdeal.Launch
import proofs.«152392_j21878563405909_2_alg».proof.Proof.Gen.KernelIdeal.Skeleton
import proofs.«152392_j21878563405909_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch: this is the first column block of a row tile (grid coordinate 1 is 0). -/
abbrev condZ (i : grid0.Coords) : Prop := (Scalar.cmpi .ne (Scalar.extui (Scalar.cmpi .eq (BitVec.ofNat 32 (i 1).val) 0#32)) 0#32) = 1#1
/-- The body's second branch: this is the last column block of a row tile (grid coordinate 1 is 3). -/
abbrev condL (i : grid0.Coords) : Prop := k0_cond2 i = 1#1

/-- The 512 consecutive columns of a 2048-column block that start at column `off`. -/
def slc (off : Nat) (h : ∀ a, (![0, off] : Fin 2 → Nat) a + S4x512.size a ≤ S4x2048.size a) (X : Vec F S4x2048 .f32) : Vec F S4x512 .f32 :=
  View.ld X (Rect.unit (s := S4x2048) ![0, off] S4x512.size h)

theorem inb0 : ∀ a, (![0, 0] : Fin 2 → Nat) a + S4x512.size a ≤ S4x2048.size a := by decide
theorem inb1 : ∀ a, (![0, 512] : Fin 2 → Nat) a + S4x512.size a ≤ S4x2048.size a := by decide
theorem inb2 : ∀ a, (![0, 1024] : Fin 2 → Nat) a + S4x512.size a ≤ S4x2048.size a := by decide
theorem inb3 : ∀ a, (![0, 1536] : Fin 2 → Nat) a + S4x512.size a ≤ S4x2048.size a := by decide

/-- One grid step's update of the running count `s`: `s` plus the counts over the four 512-column sub-slices of the
    column block, for the row tile `xr, yr`. -/
def upd (xr yr : Vec F S4x256 .f32) (xc yc : Vec F S4x2048 .f32) (s : Vec F S4x256 .f32) : Vec F S4x256 .f32 :=
  k0_pay1 xr yr (k0_pay5 xr yr (k0_pay4 xr yr (slc 0 inb0 xc) (slc 0 inb0 yc)) (slc 512 inb1 xc) (slc 512 inb1 yc) (slc 1024 inb2 xc) (slc 1024 inb2 yc)) (slc 1536 inb3 xc) (slc 1536 inb3 yc) s

theorem hz2 : (![0, 0] : Fin 2 → Nat) = fun _ => 0 := by funext a; fin_cases a <;> rfl

set_option maxHeartbeats 4000000 in
/-- At the first column block of a row tile the running count is reset, then the block's counts are added; the output block is left as found. -/
theorem body_first (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x2048 .f32) (harg4 : arg4.IsWhole) (arg5 : Memref sig .tc .vmem S4x2048 .f32) (harg5 : arg5.IsWhole) (arg6 : Memref sig .tc .vmem S4x256 .i32) (harg6 : arg6.IsWhole) (arg7 : Memref sig .tc .vmem S4x256 .f32) (harg7 : arg7.IsWhole)
    (hc1 : condZ i) (hc2 : ¬condL i)
    (xr yr : Vec F S4x256 .f32) (xc yc : Vec F S4x2048 .f32) (o : Vec F S4x256 .i32) (s : Vec F S4x256 .f32)
    (E : Set ℕ) (K : PUnit → sProp 𝕄) :
    iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare s
        ∗ (iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare (upd xr yr xc yc (k0_pay3 (F := F)))) -∗ K ⟨⟩))
      ⊢ wp frame (wpE (defs₀ (F := F)) Variants.none c none) E (cc0__radius_count_kernel i arg2 harg2 arg3 harg3 arg4 harg4 arg5 harg5 arg6 harg6 arg7 harg7) K := by
  simp only [cc0__radius_count_kernel_eq_skeleton]; unfold cc0__radius_count_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H7
  ipureintro
  sl_unfold_words
  rw [View.read_writes_eq_canon _ _ _ (fun y => ⟨_, List.mem_cons_self, View.mem_set_unit_zero hz2 Facts₀.inb_S4x256_S4x256_0_0 y⟩), View.canon_cons_unit_zero hz2]
  simp only [View.readAt_eq_ld, hf2, hf3, hf4, hf5, hf7, View.ld_unit_zero (S := S4x256) hz2, View.readCov_unit_zero (S := S4x256) arg7.view hz2 Facts₀.inb_S4x256_S4x256_0_0]
  rfl

set_option maxHeartbeats 4000000 in
/-- At a middle column block the block's counts are added to the running count; the output block is left as found. -/
theorem body_mid (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x2048 .f32) (harg4 : arg4.IsWhole) (arg5 : Memref sig .tc .vmem S4x2048 .f32) (harg5 : arg5.IsWhole) (arg6 : Memref sig .tc .vmem S4x256 .i32) (harg6 : arg6.IsWhole) (arg7 : Memref sig .tc .vmem S4x256 .f32) (harg7 : arg7.IsWhole)
    (hc1 : ¬condZ i) (hc2 : ¬condL i)
    (xr yr : Vec F S4x256 .f32) (xc yc : Vec F S4x2048 .f32) (o : Vec F S4x256 .i32) (s : Vec F S4x256 .f32)
    (E : Set ℕ) (K : PUnit → sProp 𝕄) :
    iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare s
        ∗ (iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare (upd xr yr xc yc s)) -∗ K ⟨⟩))
      ⊢ wp frame (wpE (defs₀ (F := F)) Variants.none c none) E (cc0__radius_count_kernel i arg2 harg2 arg3 harg3 arg4 harg4 arg5 harg5 arg6 harg6 arg7 harg7) K := by
  simp only [cc0__radius_count_kernel_eq_skeleton]; unfold cc0__radius_count_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H7
  ipureintro
  sl_unfold_words
  rw [View.read_writes_eq_canon _ _ _ (fun y => ⟨_, List.mem_cons_self, View.mem_set_unit_zero hz2 Facts₀.inb_S4x256_S4x256_0_0 y⟩), View.canon_cons_unit_zero hz2]
  simp only [View.readAt_eq_ld, hf2, hf3, hf4, hf5, hf7, View.ld_unit_zero (S := S4x256) hz2, View.readCov_unit_zero (S := S4x256) arg7.view hz2 Facts₀.inb_S4x256_S4x256_0_0]
  rfl

set_option maxHeartbeats 4000000 in
/-- At the last column block the block's counts are added and the output block is written: one where the finished count exceeds eight, zero elsewhere. -/
theorem body_last (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x2048 .f32) (harg4 : arg4.IsWhole) (arg5 : Memref sig .tc .vmem S4x2048 .f32) (harg5 : arg5.IsWhole) (arg6 : Memref sig .tc .vmem S4x256 .i32) (harg6 : arg6.IsWhole) (arg7 : Memref sig .tc .vmem S4x256 .f32) (harg7 : arg7.IsWhole)
    (hc1 : ¬condZ i) (hc2 : condL i)
    (xr yr : Vec F S4x256 .f32) (xc yc : Vec F S4x2048 .f32) (o : Vec F S4x256 .i32) (s : Vec F S4x256 .f32)
    (E : Set ℕ) (K : PUnit → sProp 𝕄) :
    iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare o ∗ owns (c : Thread nD τ) arg7 fullShare s
        ∗ (iprop(owns (c : Thread nD τ) arg2 fullShare xr ∗ owns (c : Thread nD τ) arg3 fullShare yr ∗ owns (c : Thread nD τ) arg4 fullShare xc ∗ owns (c : Thread nD τ) arg5 fullShare yc
        ∗ owns (c : Thread nD τ) arg6 fullShare (k0_pay2 (upd xr yr xc yc s)) ∗ owns (c : Thread nD τ) arg7 fullShare (upd xr yr xc yc s)) -∗ K ⟨⟩))
      ⊢ wp frame (wpE (defs₀ (F := F)) Variants.none c none) E (cc0__radius_count_kernel i arg2 harg2 arg3 harg3 arg4 harg4 arg5 harg5 arg6 harg6 arg7 harg7) K := by
  simp only [cc0__radius_count_kernel_eq_skeleton]; unfold cc0__radius_count_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    sl_unfold_words
    rw [View.read_writes_eq_canon _ _ _ (fun y => ⟨_, List.mem_cons_self, View.mem_set_unit_zero hz2 Facts₀.inb_S4x256_S4x256_0_0 y⟩), View.canon_cons_unit_zero hz2]
    simp only [View.readAt_eq_ld, hf2, hf3, hf4, hf5, hf7, View.ld_unit_zero (S := S4x256) hz2, View.readCov_unit_zero (S := S4x256) arg7.view hz2 Facts₀.inb_S4x256_S4x256_0_0]
    rfl
  iexists _; isplitr
  swap; · iexact H7
  ipureintro
  sl_unfold_words
  rw [View.read_writes_eq_canon _ _ _ (fun y => ⟨_, List.mem_cons_self, View.mem_set_unit_zero hz2 Facts₀.inb_S4x256_S4x256_0_0 y⟩), View.canon_cons_unit_zero hz2]
  simp only [View.readAt_eq_ld, hf2, hf3, hf4, hf5, hf7, View.ld_unit_zero (S := S4x256) hz2, View.readCov_unit_zero (S := S4x256) arg7.view hz2 Facts₀.inb_S4x256_S4x256_0_0]
  rfl

end Cert.KernelIdeal.Hand

end
-- ==== Proof.KDat.lean ====
/-
  What the kernel's buffers hold point by point.

  Point `t` of the grid is column block `t mod 4` of row tile `t / 4`.  Every input buffer holds, when the body runs, its
  array's block at the point.  The running count after the body at position `n` (`accAt`) starts afresh at the first
  column block of each row tile and is carried through the tile's other three.  Between points the scratch buffer holds
  that count; the output buffer is written at a row tile's last column block only, and is handed back as found elsewhere.
  From these the body's three cases give the obligation at every point.
-/
import proofs.«152392_j21878563405909_2_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- A core's buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions over the grid: point `t` is column block `t mod 4` of row tile `t / 4` -/

theorem hcondZ : ∀ t : Fin cfg0.N, condZ (grid0.coords t) ↔ t.val % 4 = 0 :=
  (by decide +kernel : ∀ t : Fin grid0.N, condZ (grid0.coords t) ↔ t.val % 4 = 0)
theorem hcondL : ∀ t : Fin cfg0.N, condL (grid0.coords t) ↔ t.val % 4 = 3 :=
  (by decide +kernel : ∀ t : Fin grid0.N, condL (grid0.coords t) ↔ t.val % 4 = 3)

/-- The output window is idle, and not written back, away from a row tile's last column block. -/
theorem idle4 : ∀ t : Fin cfg0.N, ¬condL (grid0.coords t) → cfg0.idle 4 (grid0.coords t) = true := by decide +kernel
theorem noFlush4 : ∀ t : Fin cfg0.N, ¬condL (grid0.coords t) → (cfg0.win 4).flush t = false := by decide +kernel
theorem live4 : ∀ t : Fin cfg0.N, condL (grid0.coords t) → cfg0.idle 4 (grid0.coords t) = false := by decide +kernel

/-! ## The staging memrefs at a point -/

abbrev ms0 (t : Fin cfg0.N) : Memref sig .tc .vmem S4x256 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S4x256 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S4x2048 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S4x2048 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S4x256 .i32 := win0_4.stage (cfg0.slots t 4)
abbrev hs4 (t : Fin cfg0.N) : (ms4 t).IsWhole := Facts₀.hstage0_4 ((cfg0.slots t 4).cast Facts₀.nbuf0_4)
/-- The scratch buffer that carries the running count between points. -/
abbrev scM : Memref sig .tc .vmem S4x256 .f32 := Memref.whole cc0_scratch0

/-! ## The running count point by point -/

/-- One point's update of the running count at the point's own blocks. -/
def updAt (c : Dev nD) (t : Fin cfg0.N) (s : Vec F S4x256 .f32) : Vec F S4x256 .f32 :=
  upd (iblk m c 0 t) (iblk m c 1 t) (iblk m c 2 t) (iblk m c 3 t) s

/-- The running count after the body at position `n`: reset at the first column block of each row tile, carried on
    through the tile's other column blocks. -/
def accAt (c : Dev nD) : (n : ℕ) → n < cfg0.N → Vec F S4x256 .f32
  | 0, hn => updAt m c ⟨0, hn⟩ (k0_pay3 (F := F))
  | n + 1, hn =>
    if (n + 1) % 4 = 0 then updAt m c ⟨n + 1, hn⟩ (k0_pay3 (F := F))
    else updAt m c ⟨n + 1, hn⟩ (accAt c n (Nat.lt_of_succ_lt hn))

theorem accAt_first (c : Dev nD) (t : Fin cfg0.N) (h0 : t.val % 4 = 0) :
    accAt m c t.val t.isLt = updAt m c t (k0_pay3 (F := F)) := by
  obtain ⟨n, hn⟩ := t
  cases n with
  | zero => rfl
  | succ n => exact if_pos h0

theorem accAt_next (c : Dev nD) (t : Fin cfg0.N) (h0 : ¬t.val % 4 = 0) :
    accAt m c t.val t.isLt = updAt m c t (accAt m c (t.val - 1) (Nat.lt_of_le_of_lt (Nat.sub_le _ _) t.isLt)) := by
  obtain ⟨n, hn⟩ := t
  cases n with
  | zero => exact absurd (Nat.zero_mod _) h0
  | succ n => exact if_neg h0

/-! ## The region invariant: the scratch at the running count -/

/-- Before position `n`: at the region's entry the scoped rest (the scratch at anything); afterwards the scratch at the
    running count the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped rest is the scratch owned at some contents. -/
theorem scopedRest_scM (c : Dev nD) :
    (Pipeline.scopedRest spec0 c : sProp 𝕄) = iprop(∃ d, owns (c : Thread nD τ) scM fullShare d) := by
  rw [scopedRest0_eq]; simp only [scM, owns_whole]; try rfl

/-! ## The pipeline's proof data -/

/-- The arrays as the region finds them; every input's buffer left at its block; the output's buffer, at a row tile's
    last column block, at the indicator of the finished count exceeding eight; the two windows on one array share it
    half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (accAt m c t.val t.isLt)
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (accAt m c t.val t.isLt) := by dsimp only [dats]

/-- An input window's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  rw [← after_0]
theorem leaves_1 (c : Dev nD) (t : Fin cfg0.N) : (dats m 0 c).leavesExact 1 t = owns (c : Thread nD τ) (ms1 t) fullShare (iblk m c 1 t) := by
  rw [← after_1]
theorem leaves_2 (c : Dev nD) (t : Fin cfg0.N) : (dats m 0 c).leavesExact 2 t = owns (c : Thread nD τ) (ms2 t) fullShare (iblk m c 2 t) := by
  rw [← after_2]
theorem leaves_3 (c : Dev nD) (t : Fin cfg0.N) : (dats m 0 c).leavesExact 3 t = owns (c : Thread nD τ) (ms3 t) fullShare (iblk m c 3 t) := by
  rw [← after_3]

set_option maxHeartbeats 4000000 in
/-- The body at any point: the case is read off the point's position in its row tile; the invariant hands the body the
    scratch at what the point before left (at anything at a tile's first column block, where the body resets it) and
    takes it back at this point's running count. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3]
  have hN : t.val < 128 := lt_of_lt_of_eq t.isLt (show cfg0.N = 128 from N_0)
  by_cases h0 : t.val % 4 = 0
  · have h3 : ¬t.val % 4 = 3 := by omega
    have hL : ¬condL (grid0.coords t) := fun h => h3 ((hcondL t).mp h)
    rw [Dat.leavesExact_idle (dats m 0 c) 4 t (idle4 t hL) (noFlush4 t hL), accAt_first m c t h0]
    have hS : (dats m 0 c).Φ t.castSucc ⊢ (iprop(∃ d, owns (c : Thread nD τ) scM fullShare d) : sProp 𝕄) := by
      rw [PhiS_castSucc m c t]
      by_cases hz : t.val = 0
      · rw [PhiS_zero m c _ _ hz, scopedRest_scM]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS' := hS $$ HS
    icases HS' with ⟨%s, HS⟩
    iapply (body_first c (grid0.coords t) _ _ _ _ _ _ _ _ _ _ _ _ ((hcondZ t).mpr h0) hL (iblk m c 0 t) (iblk m c 1 t) (iblk m c 2 t) (iblk m c 3 t) _ s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexists _; iexact H4
  · have hZ : ¬condZ (grid0.coords t) := fun h => h0 ((hcondZ t).mp h)
    have hz : t.val ≠ 0 := fun e => h0 (by rw [e])
    rw [PhiS_castSucc m c t, PhiS_pos m c _ _ hz, accAt_next m c t h0]
    by_cases h3 : t.val % 4 = 3
    · have hL : condL (grid0.coords t) := (hcondL t).mpr h3
      rw [show (dats m 0 c).leavesExact 4 t = owns (c : Thread nD τ) (ms4 t) fullShare ((dats m 0 c).after 4 t) from by
        unfold Dat.leavesExact; rw [live4 t hL], after_4, accAt_next m c t h0]
      iintro ⟨HS, Ho, ⟨%d0, H0⟩, ⟨%d1, H1⟩, ⟨%d2, H2⟩, ⟨%d3, H3⟩, ⟨%d4, H4⟩⟩
      iapply (body_last c (grid0.coords t) _ _ _ _ _ _ _ _ _ _ _ _ hZ hL (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hL : ¬condL (grid0.coords t) := fun h => h3 ((hcondL t).mp h)
      rw [Dat.leavesExact_idle (dats m 0 c) 4 t (idle4 t hL) (noFlush4 t hL)]
      iintro ⟨HS, Ho, ⟨%d0, H0⟩, ⟨%d1, H1⟩, ⟨%d2, H2⟩, ⟨%d3, H3⟩, ⟨%d4, H4⟩⟩
      iapply (body_mid c (grid0.coords t) _ _ _ _ _ _ _ _ _ _ _ _ hZ hL (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KLaunch.lean ====
/-
  The run of the whole program around the kernel.

  The kernel reads the x array through two windows (row tiles and column blocks) and the y array likewise: at entry each
  of the two arrays, held whole, is dealt half and half to its two windows, and the result array whole to the output
  window.  After the region four host operations compare the kernel's words with zero and AND the incoming mask; they
  touch the result array and buffers the kernel never sees, so the input windows' halves stay aside while they run.  The
  run ends with every window's array at the contents the write-backs left and every other buffer at what the host
  operations computed; in particular the five arguments end as they began.
-/
import proofs.«152392_j21878563405909_2_alg».proof.Proof.KDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window: the two arrays handed over twice are held half and half -/

theorem arrays_eq5 (c : Dev nD) (Fv : (w : Fin cfg0.W) → Buf (Elt F) ((cfg0.win w).arr.view.loc (c.tc : Thread nD τ))) :
    ((dats m 0 c).arrays Fv : sProp 𝕄)
      = iprop((((c.tc : Thread nD τ).loc main_arg2) ↦{fullShare.left} Fv 0) ∗ (((c.tc : Thread nD τ).loc main_arg1) ↦{fullShare.left} Fv 1)
          ∗ (((c.tc : Thread nD τ).loc main_arg2) ↦{fullShare.right} Fv 2) ∗ (((c.tc : Thread nD τ).loc main_arg1) ↦{fullShare.right} Fv 3)
          ∗ (((c.tc : Thread nD τ).loc main_v0) ↦{fullShare} Fv 4)) := by
  unfold Dat.arrays; rw [bigSep_W0]
  simp only [Memref.view_whole, View.set_whole]
  rfl

/-- The three distinct buffers behind the five windows. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_arg2) ↦{fullShare} Vv main_arg2) ∗ (((c.tc : Thread nD τ).loc main_arg1) ↦{fullShare} Vv main_arg1)
          ∗ (((c.tc : Thread nD τ).loc main_v0) ↦{fullShare} Vv main_v0)) := by
  unfold Pipeline.arrBufs
  exact bigSep_eq_bigSepL_of_eq [main_arg2, main_arg1, main_v0] (by decide) (by decide) _

/-- Entry: the three buffers behind the five windows, each whole, are dealt to the windows. -/
theorem hsplit (c : Dev nD) : (Pipeline.arrBufs spec0 c (V m c) : sProp 𝕄) ⊢ (dats m 0 c).arrays ((dats m 0 c).arrAt · 0) := by
  rw [arrays_eq5]
  rw [arrBufs_eq]
  iintro ⟨H2, H1, H0⟩
  ihave H2' := (pointsTo_share (PosShare.mem_left_op_right fullShare)).1 $$ H2
  ihave H1' := (pointsTo_share (PosShare.mem_left_op_right fullShare)).1 $$ H1
  icases H2' with ⟨H2l, H2r⟩
  icases H1' with ⟨H1l, H1r⟩
  isplitl [H2l]; · iexact H2l
  isplitl [H1l]; · iexact H1l
  isplitl [H2r]; · iexact H2r
  isplitl [H1r]; · iexact H1r
  iexact H0

/-! ## The host operations after the region -/

/-- The buffers the host operations after the region touch: the kernel's result and the buffers that bypass the region. -/
abbrev tailL : List (DevRef τ sig) :=
  [Proc.devRef .tc main_v0, Proc.devRef .tc main_arg0, Proc.devRef .tc main_arg3, Proc.devRef .tc main_arg4,
   Proc.devRef .tc main_c, Proc.devRef .tc main_v1, Proc.devRef .tc main_v2, Proc.devRef .tc main_v3]
abbrev tailS : Finset (DevRef τ sig) := tailL.toFinset

theorem held_tailS (c : Dev nD) (W : Valuation τ sig (Elt F)) :
    (StableHlo.held (c.tc : Thread nD τ) tailS W : sProp 𝕄)
      = iprop((((c.tc : Thread nD τ).loc main_v0) ↦{fullShare} W (Proc.devRef .tc main_v0))
          ∗ (((c.tc : Thread nD τ).loc main_arg0) ↦{fullShare} W (Proc.devRef .tc main_arg0))
          ∗ (((c.tc : Thread nD τ).loc main_arg3) ↦{fullShare} W (Proc.devRef .tc main_arg3))
          ∗ (((c.tc : Thread nD τ).loc main_arg4) ↦{fullShare} W (Proc.devRef .tc main_arg4))
          ∗ (((c.tc : Thread nD τ).loc main_c) ↦{fullShare} W (Proc.devRef .tc main_c))
          ∗ (((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_v3) ↦{fullShare} W (Proc.devRef .tc main_v3))) := by
  unfold StableHlo.held
  exact bigSep_eq_bigSepL tailL (by decide) _

/-- The core's buffer contents at the region's exit: the kernel's result array as the write-backs left it, every
    other buffer as the region found it. -/
def Vout (c : Dev nD) : Valuation τ sig (Elt F) :=
  Function.update (V0 m c) (Proc.devRef .tc main_v0) ((dats m 0 c).arrAt 4 cfg0.N)

/-- And after the host operations that follow the region. -/
def Wout (c : Dev nD) (b : Ref sig .tc) : Buf (Elt F) ((c.tc : Thread nD τ).loc b) :=
  StableHlo.after hostOps1 (Vout m c) (Proc.devRef .tc b)

theorem Vout_v0 (c : Dev nD) : Vout m c (Proc.devRef .tc main_v0) = (dats m 0 c).arrAt 4 cfg0.N := by
  unfold Vout; exact Function.update_self ..

theorem Vout_ne (c : Dev nD) (b : Ref sig .tc) (h : b ≠ main_v0) : Vout m c (Proc.devRef .tc b) = V m c b := by
  unfold Vout; exact Function.update_of_ne (fun e => h (Proc.devRef_injective _ e)) ..

theorem hostOps1_fresh : (hostOps1 : List (HloOp τ sig (Elt F))).Forall fun op => op.fresh = ∅ := by
  simp only [List.Forall]; repeat' constructor

theorem hostOps1_tail : ∀ op ∈ (hostOps1 : List (HloOp τ sig (Elt F))), op.bufs ⊆ tailS := by
  intro op hop
  simp only [hostOps1, List.mem_cons, List.mem_nil_iff, or_false] at hop
  rcases hop with rfl | rfl | rfl | rfl
  · rw [StableHlo.nullary_bufs]; decide
  · rw [StableHlo.unary_bufs]; decide
  · rw [StableHlo.binary_bufs]; decide
  · rw [StableHlo.binary_bufs]; decide

theorem Wout_v0 (c : Dev nD) : Wout m c main_v0 = (dats m 0 c).arrAt 4 cfg0.N := by
  unfold Wout
  rw [← Vout_v0]
  after_results

set_option backward.isDefEq.respectTransparency.types false in
/-- The host operations after the region: they read the kernel's result and the mask, and write only buffers that
    bypass the region; the four input windows' halves of their arrays are framed. -/
theorem htail (c : Dev nD) (Q' : PUnit → sProp 𝕄) :
    iprop((iprop((dats m 0 c).arrays ((dats m 0 c).arrAt · cfg0.N) ∗ (Pipeline.unscopedRest (Ix := Unit) (Name := ℕ) (U := UR sig nD τ) (Lvl := ℕ) spec0 c (Wout m c))) -∗ Q' ⟨⟩)
        ∗ boundary (c.tc : Thread nD τ) ∗ (dats m 0 c).arrays ((dats m 0 c).arrAt · cfg0.N) ∗ (Pipeline.unscopedRest (Ix := Unit) (Name := ℕ) (U := UR sig nD τ) (Lvl := ℕ) spec0 c (V m c)))
      ⊢ wp frame (wpE (defs (F := F)) (Variants.lift Variants.none) (c.tc : Thread nD τ) none) Set.univ
          (Pipeline.chain [StableHlo.seq hostOps1]) Q' := by
  rw [arrays_eq5, unscopedRest0_eq, unscopedRest0_eq]
  iintro ⟨Hk, Hb, ⟨A0, A1, A2, A3, A4⟩, R0, R3, R4, Rc, R1, R2, R3'⟩
  rw [Pipeline.chain_cons, Pipeline.chain_nil]
  iapply (StableHlo.wp_seq (Variants.lift Variants.none) none Set.univ c tailS (fun _ => pure ⟨⟩) hostOps1 (hostOps1_tail)
    (fun op hop => (List.forall_iff_forall_mem.mp hostOps1_fresh) op hop) (Vout m c)) $$ [Hb A4 R0 R3 R4 Rc R1 R2 R3']
  · rw [held_tailS, Vout_v0, Vout_ne m c main_arg0 (by decide), Vout_ne m c main_arg3 (by decide), Vout_ne m c main_arg4 (by decide),
      Vout_ne m c main_c (by decide), Vout_ne m c main_v1 (by decide), Vout_ne m c main_v2 (by decide), Vout_ne m c main_v3 (by decide)]
    isplitl [Hb]; · iexact Hb
    isplitl [A4]; · iexact A4
    isplitl [R0]; · iexact R0
    isplitl [R3]; · iexact R3
    isplitl [R4]; · iexact R4
    isplitl [Rc]; · iexact Rc
    isplitl [R1]; · iexact R1
    isplitl [R2]; · iexact R2
    iexact R3'
  rw [held_tailS]
  iintro ⟨Hb, A4, R0, R3, R4, Rc, R1, R2, R3'⟩
  rw [wp_pure]
  imodintro
  iapply Hk
  isplitl [A0 A1 A2 A3 A4]
  · isplitl [A0]; · iexact A0
    isplitl [A1]; · iexact A1
    isplitl [A2]; · iexact A2
    isplitl [A3]; · iexact A3
    rw [← Wout_v0]; iexact A4
  isplitl [R0]; · iexact R0
  isplitl [R3]; · iexact R3
  isplitl [R4]; · iexact R4
  isplitl [Rc]; · iexact Rc
  isplitl [R1]; · iexact R1
  isplitl [R2]; · iexact R2
  iexact R3'

/-! ## The run -/

/-- @main is the region continued by the four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem hout (c : Dev nD) : (dats m 0 c).Φ (Fin.last cfg0.N) ⊢ (iprop(emp ∗ Pipeline.scopedRest spec0 c) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_scM]
  iintro H
  isplitr; · iempintro
  iexists _; iexact H

set_option backward.isDefEq.respectTransparency.types false in
/-- Every weakly fair execution of @main terminates; every window's array ends at the proof data's final contents and
    every buffer that bypasses the region at what the host operations after the region leave. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Wout m c b) := by
  classical
  exact Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp)) (Z := fun c => (Pipeline.unscopedRest (Ix := Unit) (Name := ℕ) (U := UR sig nD τ) (Lvl := ℕ) spec0 c (V m c))) (Z' := fun c => (Pipeline.unscopedRest (Ix := Unit) (Name := ℕ) (U := UR sig nD τ) (Lvl := ℕ) spec0 c (Wout m c)))
    (hX := fun c => by
      rw [Pipeline.unscopedRestP_none]
      iintro HU
      isplitr [HU]; · iempintro
      iexact HU)
    (hin := fun c => by
      rw [show (dats m 0 c).Φ 0 = Pipeline.scopedRest spec0 c from rfl]
      iintro ⟨-, -, Hr⟩; iexact Hr)
    (hout := hout m)
    (htail := htail m)
    (QY := fun c s => ∀ b ∈ Pipeline.restRefs sig spec0, s.mem ((c.tc : Thread nD τ).loc b) = Wout m c b)
    (hY := fun c s' => by
      iintro ⟨-, HU, HSI⟩
      unfold Pipeline.unscopedRest
      imodintro
      iapply (pointsTo_read_all (Pipeline.restRefs sig spec0) (fun b => (c.tc : Thread nD τ).loc b) (Wout m c) s')
      isplitl [HU] <;> iassumption)
    (hQ := fun s h c => ⟨(h c).1, (h c).2.2⟩)

/-! ## The frame -/

theorem Wout_arg0 (c : Dev nD) : Wout m c main_arg0 = m ((c.tc : Thread nD τ).loc main_arg0) := by
  unfold Wout; after_results; exact Vout_ne m c main_arg0 (by decide)
theorem Wout_arg3 (c : Dev nD) : Wout m c main_arg3 = m ((c.tc : Thread nD τ).loc main_arg3) := by
  unfold Wout; after_results; exact Vout_ne m c main_arg3 (by decide)
theorem Wout_arg4 (c : Dev nD) : Wout m c main_arg4 = m ((c.tc : Thread nD τ).loc main_arg4) := by
  unfold Wout; after_results; exact Vout_ne m c main_arg4 (by decide)

/-- The host operations' result: the mask and the kernel's result array compared with zero. -/
theorem Wout_v3 (c : Dev nD) :
    Wout m c main_v3 = andi (m ((c.tc : Thread nD τ).loc main_arg4))
      (cmpi .sgt ((dats m 0 c).arrAt 4 cfg0.N) (broadcastInDim S4x8192 ![] Facts₀.bcast_S_S4x8192 (constantI S_ 32 0#32))) := by
  unfold Wout; after_results
  rw [Vout_v0, Vout_ne m c main_arg4 (by decide)]
  rfl

/-- An input window's array is never written. -/
theorem arr_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- Every weakly fair execution of @main terminates and the argument arrays end as they began. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (by decide)).trans (Wout_arg0 m c),
     ((h c).1 1).trans (arr_in m c 1 rfl _),
     ((h c).1 0).trans (arr_in m c 0 rfl _),
     ((h c).2 main_arg3 (by decide)).trans (Wout_arg3 m c),
     ((h c).2 main_arg4 (by decide)).trans (Wout_arg4 m c)⟩) (run_main m ρ)

end Cert.KernelIdeal.Hand

end
-- ==== Proof.LibCoeSums.lean ====
/-
  On the extended reals a factor moves across a finite sum when the factor and the summands are real numbers (in general
  it does not: ⊤ + ⊥ = ⊥ breaks distributivity). So a sum of terms A_k + g·B_k with g and the B_k real is Σ A_k + g·Σ B_k,
  whatever extended reals the A_k are.
-/
import Mathlib.Data.EReal.Operations
import Mathlib.Algebra.BigOperators.Ring.Finset

open scoped BigOperators

namespace Cert.Lib

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves across a finite sum of real numbers, inside the extended reals. -/
theorem mul_sum_coe {ι : Type*} (s : Finset ι) (g : ℝ) (B : ι → ℝ) :
    (g : EReal) * ∑ k ∈ s, (B k : EReal) = ∑ k ∈ s, (g : EReal) * (B k : EReal) := by
  rw [← coe_sum, ← EReal.coe_mul, Finset.mul_sum, coe_sum]
  exact Finset.sum_congr rfl fun k _ => EReal.coe_mul g (B k)

/-- Terms A_k + g·B_k with g and the B_k real sum to Σ A_k + g·Σ B_k. -/
theorem sum_add_mul_coe {ι : Type*} (s : Finset ι) (A : ι → EReal) (g : ℝ) (B : ι → ℝ) :
    ∑ k ∈ s, (A k + (g : EReal) * (B k : EReal)) = (∑ k ∈ s, A k) + (g : EReal) * ∑ k ∈ s, (B k : EReal) := by
  rw [Finset.sum_add_distrib, mul_sum_coe]

end Cert.Lib
-- ==== Proof.Spec.lean ====
/-
  The mathematics of the radius filter, free of both programs.

  For a batch row b the points are (x b k, y b k), k < 8192.  Point r KEEPS its place when more than eight points of its
  row lie within the radius of it (itself included): when the squared distance (x r − x k)² + (y r − y k)² is at most the
  literal 0.0025 (as a 32-bit float) for more than eight k.  The result is the incoming mask AND that bit.

  Both programs count: the reference adds 32-bit words 0/1 over all 8192 columns, the kernel adds the reals 0/1, 512
  columns at a time.  Either count is the NUMBER of near columns (`ones`), at most 8192, so "greater than eight" reads the
  same on the word (signed) and on the real.
-/
import Idealize.ShloMosaic.PureOps.Ideal.Laws
import Idealize.ShloMosaic.PureOps.Reduce
import Idealize.ShloMosaic.Lib.ValueIdx
import proofs.«152392_j21878563405909_2_alg».proof.Proof.LibCoeSums

noncomputable section

open scoped BigOperators

namespace Cert.Spec

open Idealize.ShloMosaic Idealize.ShloMosaic.ValueIdx

/-- The array shape: four rows of 8192 points. -/
abbrev S : Shape := ⟨2, ![4, 8192]⟩

/-- The literal the squared distance is compared with. -/
abbrev r2 : EReal := Ideal.ofBits .f32 0x3B23D70A#32

/-- The squared distance between the points (a, b) and (c, d). -/
def d2 (a b c d : EReal) : EReal := (a - c) * (a - c) + (b - d) * (b - d)

/-- "Within the radius", as the comparison's one-bit word. -/
def nearW (a b c d : EReal) : BitVec 1 := Ideal.cmp .ole (d2 a b c d) r2

/-- Column `k` of row `b` (zero past the end: never read). -/
def at2 (x : S.Idx → EReal) (b : Fin 4) (k : ℕ) : EReal := if h : k < 8192 then x (ix2 b ⟨k, h⟩) else 0

theorem at2_lt (x : S.Idx → EReal) (b : Fin 4) (k : Fin 8192) : at2 x b k.val = x (ix2 b k) := by
  unfold at2; rw [dif_pos k.isLt]

/-- For point `r` of row `b`: which columns are within the radius. -/
def nearSeq (x y : S.Idx → EReal) (b : Fin 4) (r : ℕ) : ℕ → BitVec 1 :=
  fun k => nearW (at2 x b r) (at2 y b r) (at2 x b k) (at2 y b k)

/-- How many of the first `m` words are one. -/
def ones (f : ℕ → BitVec 1) (m : ℕ) : ℕ := ((Finset.range m).filter fun k => f k = 1#1).card

/-- The neighbour count of point `r` of row `b`. -/
def cnt (x y : S.Idx → EReal) (b : Fin 4) (r : ℕ) : ℕ := ones (nearSeq x y b r) 8192

/-- Point `r` of row `b` has more than eight neighbours. -/
def keep (x y : S.Idx → EReal) (b : Fin 4) (r : ℕ) : BitVec 1 := if 8 < cnt x y b r then 1#1 else 0#1

/-- The result: the mask, and the point has more than eight neighbours. -/
def G (x y : S.Idx → EReal) (v : S.Idx → BitVec 1) : S.Idx → BitVec 1 :=
  fun i => IntOp.andi (v i) (keep x y (i 0) (i 1).val)

/-! ## Counting -/

theorem ones_eq_sum (f : ℕ → BitVec 1) (m : ℕ) : ones f m = ∑ k ∈ Finset.range m, (if f k = 1#1 then 1 else 0) := by
  unfold ones; rw [Finset.card_filter]

theorem ones_add (f : ℕ → BitVec 1) (m n : ℕ) : ones f (m + n) = ones f m + ones (fun k => f (m + k)) n := by
  rw [ones_eq_sum, ones_eq_sum, ones_eq_sum, Finset.sum_range_add]

theorem ones_le (f : ℕ → BitVec 1) (m : ℕ) : ones f m ≤ m := by
  unfold ones; exact (Finset.card_filter_le _ _).trans (Finset.card_range m).le

/-- The real 1 or 0 the kernel selects on a comparison's word. -/
def selW (c : BitVec 1) : EReal :=
  Scalar.select c (Ideal.ofBits .f32 0x3F800000#32) (Ideal.ofBits .f32 0x00000000#32)

theorem ofBits_one : Ideal.ofBits .f32 0x3F800000#32 = 1 := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem selW_eq (c : BitVec 1) : selW c = (((if c = 1#1 then 1 else 0 : ℕ) : ℝ) : EReal) := by
  obtain rfl | rfl : c = 0#1 ∨ c = 1#1 := by revert c; decide
  · simp [selW, Scalar.select, Ideal.ofBits_zero_f32]
  · simp [selW, Scalar.select, ofBits_one]

/-- The kernel's sum of selected reals over `n` columns is their count. -/
theorem sum_selW (f : ℕ → BitVec 1) (n : ℕ) : ∑ l : Fin n, selW (f l.val) = ((ones f n : ℝ) : EReal) := by
  rw [ones_eq_sum, Nat.cast_sum, Cert.Lib.coe_sum, ← Fin.sum_univ_eq_sum_range (fun k => (((if f k = 1#1 then 1 else 0 : ℕ) : ℝ) : EReal)) n]
  exact Finset.sum_congr rfl fun l _ => selW_eq _

/-- The reference's fold of 32-bit words over `n` columns is their count, as a word. -/
theorem fold_words (f : ℕ → BitVec 1) (n : ℕ) :
    (Finset.univ : Finset (Fin n)).fold IntOp.addi 0#32 (fun l => (f l.val).setWidth 32) = BitVec.ofNat 32 (ones f n) := by
  have h1 : ∀ c : BitVec 1, c.setWidth 32 = BitVec.ofNat 32 (if c = 1#1 then 1 else 0) := by decide
  have h2 : ∀ (s : Finset (Fin n)), s.fold IntOp.addi 0#32 (fun l => (f l.val).setWidth 32)
      = BitVec.ofNat 32 (∑ l ∈ s, (if f l.val = 1#1 then 1 else 0)) := by
    intro s
    induction s using Finset.induction_on with
    | empty => rfl
    | insert a s ha ih =>
      rw [Finset.fold_insert ha, ih, Finset.sum_insert ha, h1]
      show BitVec.ofNat 32 _ + BitVec.ofNat 32 _ = _
      rw [← BitVec.ofNat_add]
  rw [h2, ones_eq_sum, Fin.sum_univ_eq_sum_range (fun k => (if f k = 1#1 then 1 else 0 : ℕ)) n]

/-! ## "More than eight", on the word and on the real -/

theorem gt8_word (n : ℕ) (hn : n ≤ 8192) : IntOp.cmpi .sgt (BitVec.ofNat 32 n) 8#32 = if 8 < n then 1#1 else 0#1 := by
  have h : (8#32).slt (BitVec.ofNat 32 n) = decide (8 < n) := by
    unfold BitVec.slt
    have e1 : (BitVec.ofNat 32 n).toInt = (n : ℤ) := by
      have hn' : (BitVec.ofNat 32 n).toNat = n := by rw [BitVec.toNat_ofNat]; omega
      rw [BitVec.toInt_eq_toNat_of_lt (by rw [hn']; omega), hn']
    rw [e1]
    have e2 : (8#32 : BitVec 32).toInt = 8 := by decide
    rw [e2]
    simp
  show BitVec.ofBool ((8#32).slt (BitVec.ofNat 32 n)) = _
  rw [h]
  by_cases h8 : 8 < n
  · rw [if_pos h8]; simp [h8]
  · rw [if_neg h8]; simp [h8]

theorem gt8_real (n : ℕ) : Ideal.cmp .ogt (((n : ℝ) : EReal)) (Ideal.ofBits .f32 0x41000000#32) = if 8 < n then 1#1 else 0#1 := by
  rw [ofBits_eight]
  show BitVec.ofBool (decide (((8 : ℝ) : EReal) < ((n : ℝ) : EReal))) = _
  have hiff : (((8 : ℝ) : EReal) < ((n : ℝ) : EReal)) ↔ 8 < n := by
    rw [EReal.coe_lt_coe_iff]; exact_mod_cast Iff.rfl
  by_cases h8 : 8 < n
  · rw [if_pos h8, decide_eq_true (hiff.mpr h8)]; rfl
  · rw [if_neg h8, decide_eq_false (mt hiff.mp h8)]; rfl

theorem pos_word : ∀ b : BitVec 1, IntOp.cmpi .sgt (b.setWidth 32) 0#32 = b := by decide

end Cert.Spec

end
-- ==== Proof.LibRank3UnitAxes.lean ====
/-
  Rank-3 arrays with a unit axis in the middle or at the end, read at an index given by coordinates; any extents.

  * a shape cast that drops or adds a TRAILING unit axis ([a,b,1] ↔ [a,b]) or a MIDDLE unit axis ([a,1,n] ↔ [a,n])
    keeps the row-major position, so it reads the operand at the same coordinates with 0 on the unit axis;
  * a broadcast of [a,b,1] or of [a,1,n] to [a,b,n] repeats the operand along the unit axis;
  * a load through a unit-stride rectangle reads the contents at offset + coordinate on every axis;
  * at the ideal values, a minimum reduction over the LAST axis of an [a,b,n] array — a vector unit's
    `multi_reduction <minimumf>` or the host's `reduce` with a minimum body — is, at (i, j), the fold of `min` from
    the initial value over the n entries (i, j, ·).
-/
import Idealize.ShloMosaic.Lib.Pipeline.Value
import Idealize.ShloMosaic.Lib.ValueIdx
import Idealize.ShloMosaic.PureOps.Ideal.Laws

noncomputable section

namespace Cert.Rank3UnitAxes

open Idealize.ShloMosaic Idealize.ShloMosaic.ValueIdx

variable {α : Type}

/-- [a,b,1] cast to [a,b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- [a,b] cast to [a,b,1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,1,n] cast to [a,n] reads, at (i, l), the operand at (i, 0, l). -/
theorem shapeCast_a1n_an_apply {a n : ℕ} (x : (⟨3, ![a, 1, n]⟩ : Shape).Idx → α)
    (h : (⟨3, ![a, 1, n]⟩ : Shape).ShapeCasts ⟨2, ![a, n]⟩) (i : Fin a) (l : Fin n) :
    shapeCast ⟨2, ![a, n]⟩ x h (ix2 i l) = x (ix3 i (0 : Fin 1) l) :=
  shapeCast_apply x h _ _ (by
    rw [Shape.rowMajor_val_three, Shape.rowMajor_val_two]
    show (i.val * 1 + 0) * n + l.val = i.val * n + l.val
    rw [Nat.mul_one, Nat.add_zero])

/-- [a,n] cast to [a,1,n] reads, at (i, u, l), the operand at (i, l). -/
theorem shapeCast_an_a1n_apply {a n : ℕ} (x : (⟨2, ![a, n]⟩ : Shape).Idx → α)
    (h : (⟨2, ![a, n]⟩ : Shape).ShapeCasts ⟨3, ![a, 1, n]⟩) (i : Fin a) (u : Fin 1) (l : Fin n) :
    shapeCast ⟨3, ![a, 1, n]⟩ x h (ix3 i u l) = x (ix2 i l) :=
  shapeCast_apply x h _ _ (by
    have hu : u.val = 0 := by omega
    rw [Shape.rowMajor_val_three, Shape.rowMajor_val_two]
    show i.val * n + l.val = (i.val * 1 + u.val) * n + l.val
    rw [hu, Nat.mul_one, Nat.add_zero])

/-- [a,b,1] broadcast to [a,b,n] reads, at (i, j, l), the operand at (i, j, 0). -/
theorem broadcastTo_ab1_abn_apply {a b n : ℕ} (x : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- [a,1,n] broadcast to [a,b,n] reads, at (i, j, l), the operand at (i, 0, l). -/
theorem broadcastTo_a1n_abn_apply {a b n : ℕ} (x : (⟨3, ![a, 1, n]⟩ : Shape).Idx → α)
    (h : (⟨3, ![a, 1, n]⟩ : Shape).Broadcasts ⟨3, ![a, b, n]⟩) (i : Fin a) (j : Fin b) (l : Fin n) :
    broadcastTo ⟨3, ![a, b, n]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if n = 1 then 0 else l.val
    split
    · have := l.isLt; omega
    · rfl

/-- A load through a unit-stride rectangle reads the contents at offset + coordinate on every axis. -/
theorem ld_unit_apply {Val : EltTy → Type} {e : EltTy} {S : Shape} (X : S.Idx → Val e) (off : Fin S.rank → Nat) (size : Fin S.rank → Nat)
    (inb : ∀ ax, off ax + size ax ≤ S.size ax) (y : (Rect.unit (s := S) off size inb).shape.Idx) (k : S.Idx)
    (hk : ∀ ax, (k ax).val = off ax + (y ax).val) :
    View.ld X (Rect.unit (s := S) off size inb) y = X k := by
  show X ((Rect.unit (s := S) off size inb).emb y) = X k
  refine congrArg X (funext fun ax => Fin.ext ?_)
  rw [Rect.emb_apply, hk ax]
  show off ax + 1 * (y ax).val = _
  rw [Nat.one_mul]

/-- The index over (i, j) with l inserted on the last axis is (i, j, l). -/
theorem lift_last {a b n : ℕ} (h : (⟨3, ![a, b, n]⟩ : Shape).Reduces [2] ⟨2, ![a, b]⟩) (i : Fin a) (j : Fin b) (l : Fin n) :
    h.lift (ix2 i j) l = ix3 i j l :=
  funext fun ax => Fin.ext (by match ax with | ⟨0, _⟩ => rfl | ⟨1, _⟩ => rfl | ⟨2, _⟩ => rfl)

/-- At the ideal values a `multi_reduction <minimumf>` over the last axis of an [a,b,n] array is, at (i, j), the fold of
    `min` from the accumulator's value over the entries (i, j, ·). -/
theorem multiReduction_minimumf_last {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ)
    (hacc : acc = FKind.minimumf.neutral φ hφ) (i : Fin a) (j : Fin b) :
    multiReduction .minimumf [2] ⟨2, ![a, b]⟩ src acc h hφ hacc (ix2 i j)
      = (Finset.univ : Finset (Fin n)).fold min (Ideal.ofBits φ acc) (fun l => src (ix3 i j l)) := by
  rw [multiReduction_minimumf_eq_fold]
  refine (h.fold_filter_drop_single _ _ src (ix2 i j)).trans ?_
  exact congrArg (fun f : Fin n → EReal => (Finset.univ : Finset (Fin n)).fold min (Ideal.ofBits φ acc) f)
    (funext fun l => congrArg src (lift_last h i j l))

/-- The host's `reduce` with a minimum body over the last axis of an [a,b,n] array, at the ideal values, likewise: the
    fold of `min` from the initial value over the entries (i, j, ·). -/
theorem hostReduce_minimumf_last {a b n : ℕ} {φ : FTy} {u : Shape} (x : FVec Ideal ⟨3, ![a, b, n]⟩ φ)
    (init : u.Idx → Ideal φ) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce (FloatOps.minimumf (F := Ideal) (φ := φ)) x init h' hu (ix2 i j)
      = (Finset.univ : Finset (Fin n)).fold min (init (Shape.Idx.first hu)) (fun l => x (ix3 i j l)) := by
  refine (Host.reduce_eq_fold_single _ x init h' h hu (ix2 i j)).trans ?_
  exact congrArg (fun f : Fin n → EReal => (Finset.univ : Finset (Fin n)).fold min (init (Shape.Idx.first hu)) f)
    (funext fun l => congrArg x (lift_last h i j l))

end Cert.Rank3UnitAxes

end
-- ==== Proof.LibAxisSums.lean ====
import Idealize.ShloMosaic.PureOps.Ideal.Laws
import Idealize.ShloMosaic.Lib.ValueIdx

/-!
# A float sum along one axis of a rank-3 array, read at an index

At the ideal values a vector unit's `multi_reduction <add>` from the zero (neutral) accumulator over ONE axis of an
`[a, b, n]` array is, at each index of the result, the plain finite sum of the source over that axis's coordinate;
any extents:

* `sum_mid_apply`: over the MIDDLE axis, into `[a, n]`: at `(i, l)` the sum over `j < b` of the source at `(i, j, l)`;
* `sum_last_apply`: over the LAST axis, into `[a, b]`: at `(i, j)` the sum over `l < n` of the source at `(i, j, l)`;
* `lift_mid`, `lift_last`: the reduced index with the coordinate put back on that axis is the rank-3 index.

A contraction written as "broadcast, multiply, sum along an axis" (a weighted sum over positions, a dot product along
the hidden axis) reads as a `Fin`-indexed sum of products through these.
-/

noncomputable section

open scoped BigOperators

namespace Cert.AxisSums

open Idealize.ShloMosaic Idealize.ShloMosaic.ValueIdx

/-- The index `(i, l)` with `j` inserted on the middle axis is `(i, j, l)`. -/
theorem lift_mid {a b n : ℕ} (hr : (⟨3, ![a, b, n]⟩ : Shape).Reduces [1] ⟨2, ![a, n]⟩) (i : Fin a) (l : Fin n) (j : Fin b) :
    hr.lift (ix2 i l) j = ix3 i j l :=
  funext fun ax => Fin.ext (by match ax with | ⟨0, _⟩ => rfl | ⟨1, _⟩ => rfl | ⟨2, _⟩ => rfl)

/-- The index `(i, j)` with `l` inserted on the last axis is `(i, j, l)`. -/
theorem lift_last {a b n : ℕ} (hr : (⟨3, ![a, b, n]⟩ : Shape).Reduces [2] ⟨2, ![a, b]⟩) (i : Fin a) (j : Fin b) (l : Fin n) :
    hr.lift (ix2 i j) l = ix3 i j l :=
  funext fun ax => Fin.ext (by match ax with | ⟨0, _⟩ => rfl | ⟨1, _⟩ => rfl | ⟨2, _⟩ => rfl)

/-- A sum over the middle axis of an `[a, b, n]` array at `(i, l)`. -/
theorem sum_mid_apply {a b n : ℕ} {φ : FTy} (src : FVec Ideal ⟨3, ![a, b, n]⟩ φ) (acc : BitVec φ.bits)
    (hr : (⟨3, ![a, b, n]⟩ : Shape).Reduces [1] ⟨2, ![a, n]⟩) (hφ : FKind.Formats φ) (hacc : acc = FKind.add.neutral φ hφ)
    (i : Fin a) (l : Fin n) :
    multiReduction .add [1] ⟨2, ![a, n]⟩ src acc hr hφ hacc (ix2 i l) = ∑ j : Fin b, src (ix3 i j l) := by
  refine (Ideal.multiReduction_add_single src acc hr hφ hacc (ix2 i l)).trans ?_
  exact Finset.sum_congr rfl fun j _ => congrArg src (lift_mid hr i l j)

/-- A sum over the last axis of an `[a, b, n]` array at `(i, j)`. -/
theorem sum_last_apply {a b n : ℕ} {φ : FTy} (src : FVec Ideal ⟨3, ![a, b, n]⟩ φ) (acc : BitVec φ.bits)
    (hr : (⟨3, ![a, b, n]⟩ : Shape).Reduces [2] ⟨2, ![a, b]⟩) (hφ : FKind.Formats φ) (hacc : acc = FKind.add.neutral φ hφ)
    (i : Fin a) (j : Fin b) :
    multiReduction .add [2] ⟨2, ![a, b]⟩ src acc hr hφ hacc (ix2 i j) = ∑ l : Fin n, src (ix3 i j l) := by
  refine (Ideal.multiReduction_add_single src acc hr hφ hacc (ix2 i j)).trans ?_
  exact Finset.sum_congr rfl fun l _ => congrArg src (lift_last hr i j l)

end Cert.AxisSums

end
-- ==== Proof.KValue.lean ====
/-
  What the kernel computes at the ideal values.

  One sub-slice's contribution at point (b, p) of the row tile is the sum over 512 columns of 1 or 0 — the number of those
  columns within the radius.  So one grid step adds the number of near columns among the step's 2048, and after column
  block j of a row tile the running count is the number of near columns among the first 2048·(j+1): after the last block,
  among all 8192.  The block written back there is "count greater than eight" as a word; the blocks of the 32 row tiles
  cover the result array, and the host's comparison with zero and AND give the specification's result.
-/
import proofs.«152392_j21878563405909_2_alg».proof.Proof.KLaunch
import proofs.«152392_j21878563405909_2_alg».proof.Proof.Spec
import proofs.«152392_j21878563405909_2_alg».proof.Proof.LibRank3UnitAxes
import proofs.«152392_j21878563405909_2_alg».proof.Proof.LibAxisSums
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx Cert.Spec

/-! ## One sub-slice's count: the body's arithmetic read at an entry -/

/-- The count, for every point of a row tile (xr, yr), of the points of a 512-column sub-slice (u, v) within the radius:
    the body's broadcast, subtract, square, add, compare, select and lane sum. -/
def blockCount (xr yr : Vec Ideal S4x256 .f32) (u v : Vec Ideal S4x512 .f32) : FVec Ideal S4x256 .f32 :=
  multiReduction (F := Ideal) .add [2] S4x256
    (select (cmpf .ole
        (addf
          (mulf (subf (broadcastTo S4x256x512 (shapeCast S4x256x1 xr Facts₀.shapeCasts_S4x256_S4x256x1) Facts₀.broadcasts_S4x256x1_S4x256x512)
                      (broadcastTo S4x256x512 (shapeCast S4x1x512 u Facts₀.shapeCasts_S4x512_S4x1x512) Facts₀.broadcasts_S4x1x512_S4x256x512))
                (subf (broadcastTo S4x256x512 (shapeCast S4x256x1 xr Facts₀.shapeCasts_S4x256_S4x256x1) Facts₀.broadcasts_S4x256x1_S4x256x512)
                      (broadcastTo S4x256x512 (shapeCast S4x1x512 u Facts₀.shapeCasts_S4x512_S4x1x512) Facts₀.broadcasts_S4x1x512_S4x256x512)))
          (mulf (subf (broadcastTo S4x256x512 (shapeCast S4x256x1 yr Facts₀.shapeCasts_S4x256_S4x256x1) Facts₀.broadcasts_S4x256x1_S4x256x512)
                      (broadcastTo S4x256x512 (shapeCast S4x1x512 v Facts₀.shapeCasts_S4x512_S4x1x512) Facts₀.broadcasts_S4x1x512_S4x256x512))
                (subf (broadcastTo S4x256x512 (shapeCast S4x256x1 yr Facts₀.shapeCasts_S4x256_S4x256x1) Facts₀.broadcasts_S4x256x1_S4x256x512)
                      (broadcastTo S4x256x512 (shapeCast S4x1x512 v Facts₀.shapeCasts_S4x512_S4x1x512) Facts₀.broadcasts_S4x1x512_S4x256x512))))
        (broadcast S4x256x512 (Scalar.ofBits (F := Ideal) .f32 0x3B23D70A#32)))
      (broadcast S4x256x512 (Scalar.ofBits (F := Ideal) .f32 0x3F800000#32))
      (broadcast S4x256x512 (Scalar.ofBits (F := Ideal) .f32 0x00000000#32)))
    0x00000000#32 Facts₀.reduces_S4x256x512_S4x256 (.inl rfl) rfl

theorem pay4_eq (xr yr : Vec Ideal S4x256 .f32) (u v : Vec Ideal S4x512 .f32) :
    k0_pay4 (F := Ideal) xr yr u v = addf (broadcast S4x256 (Scalar.ofBits (F := Ideal) .f32 0x00000000#32)) (blockCount xr yr u v) := rfl

theorem pay5_eq (xr yr : Vec Ideal S4x256 .f32) (s : FVec Ideal S4x256 .f32) (u1 v1 u2 v2 : Vec Ideal S4x512 .f32) :
    k0_pay5 (F := Ideal) xr yr s u1 v1 u2 v2 = addf (addf s (blockCount xr yr u1 v1)) (blockCount xr yr u2 v2) := rfl

theorem pay1_eq (xr yr : Vec Ideal S4x256 .f32) (s : FVec Ideal S4x256 .f32) (u v : Vec Ideal S4x512 .f32) (z : Vec Ideal S4x256 .f32) :
    k0_pay1 (F := Ideal) xr yr s u v z
      = shapeCast S4x256 (addf z (addf s (blockCount xr yr u v))) Facts₀.shapeCasts_S4x256_S4x256 := rfl

/-- At a point (b, p) of the row tile the sub-slice's count is the sum, over its 512 columns, of the selected 1 or 0. -/
theorem blockCount_apply (xr yr : Vec Ideal S4x256 .f32) (u v : Vec Ideal S4x512 .f32) (b : Fin 4) (p : Fin 256) :
    blockCount xr yr u v (ix2 b p)
      = ∑ l : Fin 512, selW (nearW (xr (ix2 b p)) (yr (ix2 b p)) (u (ix2 b l)) (v (ix2 b l))) := by
  unfold blockCount
  refine (Cert.AxisSums.sum_last_apply _ _ _ _ _ b p).trans (Finset.sum_congr rfl fun l _ => ?_)
  simp only [select, cmpf, addf, mulf, subf, broadcast,
    Cert.Rank3UnitAxes.broadcastTo_ab1_abn_apply, Cert.Rank3UnitAxes.broadcastTo_a1n_abn_apply,
    Cert.Rank3UnitAxes.shapeCast_ab_ab1_apply, Cert.Rank3UnitAxes.shapeCast_an_a1n_apply]
  rfl

/-! ## One grid step read at an entry -/

/-- A 512-column sub-slice of a 2048-column block reads the block at the slice's offset plus the column. -/
theorem slc_apply (off : Nat) (h : ∀ a, (![0, off] : Fin 2 → Nat) a + S4x512.size a ≤ S4x2048.size a) (X : Vec Ideal S4x2048 .f32)
    (b : Fin 4) (l : Fin 512) (hl : off + l.val < 2048) :
    slc off h X (ix2 b l) = X (ix2 b ⟨off + l.val, hl⟩) := by
  unfold slc
  refine Cert.Rank3UnitAxes.ld_unit_apply X _ _ h (ix2 b l) (ix2 b ⟨off + l.val, hl⟩) fun ax => ?_
  match ax with
  | ⟨0, _⟩ => show b.val = 0 + b.val; omega
  | ⟨1, _⟩ => rfl

theorem pay3_apply (i : S4x256.Idx) : k0_pay3 (F := Ideal) i = 0 := by
  show shapeCast S4x256 (broadcast S4x256 (Scalar.ofBits (F := Ideal) .f32 0x00000000#32)) Facts₀.shapeCasts_S4x256_S4x256 i = 0
  rw [shapeCast_self]
  exact Ideal.ofBits_zero_f32

/-- One grid step adds, at every point of the row tile, the number of the column block's points within the radius:
    `g` is the point's column-by-column verdict over the block's 2048 columns. -/
theorem upd_apply (xr yr : Vec Ideal S4x256 .f32) (xc yc : Vec Ideal S4x2048 .f32) (s : Vec Ideal S4x256 .f32)
    (b : Fin 4) (p : Fin 256) (g : ℕ → BitVec 1)
    (hg : ∀ o : Fin 2048, nearW (xr (ix2 b p)) (yr (ix2 b p)) (xc (ix2 b o)) (yc (ix2 b o)) = g o.val) :
    upd xr yr xc yc s (ix2 b p) = s (ix2 b p) + ((ones g 2048 : ℝ) : EReal) := by
  have hs : ∀ (off : Nat) (h : ∀ a, (![0, off] : Fin 2 → Nat) a + S4x512.size a ≤ S4x2048.size a) (hoff : off + 512 ≤ 2048),
      blockCount xr yr (slc off h xc) (slc off h yc) (ix2 b p) = ((ones (fun l => g (off + l)) 512 : ℝ) : EReal) := by
    intro off h hoff
    rw [blockCount_apply, ← sum_selW]
    refine Finset.sum_congr rfl fun l _ => ?_
    have hl : off + l.val < 2048 := by have := l.isLt; omega
    rw [slc_apply off h xc b l hl, slc_apply off h yc b l hl, hg ⟨off + l.val, hl⟩]
  unfold upd
  rw [pay1_eq, pay5_eq, pay4_eq, shapeCast_self]
  show s (ix2 b p) + ((((Ideal.ofBits .f32 0x00000000#32 : EReal) + blockCount xr yr (slc 0 inb0 xc) (slc 0 inb0 yc) (ix2 b p))
      + blockCount xr yr (slc 512 inb1 xc) (slc 512 inb1 yc) (ix2 b p))
      + blockCount xr yr (slc 1024 inb2 xc) (slc 1024 inb2 yc) (ix2 b p)
      + blockCount xr yr (slc 1536 inb3 xc) (slc 1536 inb3 yc) (ix2 b p)) = _
  rw [hs 0 inb0 (by omega), hs 512 inb1 (by omega), hs 1024 inb2 (by omega), hs 1536 inb3 (by omega), Ideal.ofBits_zero_f32, zero_add,
    ← EReal.coe_add, ← EReal.coe_add, ← EReal.coe_add, ← Nat.cast_add, ← Nat.cast_add, ← Nat.cast_add]
  simp only [Nat.zero_add]
  have e : ones g 2048 = ones g 512 + ones (fun l => g (512 + l)) 512 + ones (fun l => g (1024 + l)) 512
      + ones (fun l => g (1536 + l)) 512 := by
    have h1 := ones_add g 1536 512
    have h2 := ones_add g 1024 512
    have h3 := ones_add g 512 512
    norm_num at h1 h2 h3
    omega
  rw [e]

/-! ## The blocks of the arrays, and the running count in closed form -/

variable (m : (ℓ : Loc nD τ sig) → Buf (Elt Ideal) ℓ) (ρ : Dev nD → PrngReg)

/-- The printed index maps over the grid: point `t` is column block `t mod 4` of row tile `t / 4`. -/
theorem idx_facts : ∀ t : Fin cfg0.N,
    win0_0.index t (0 : Fin 2) = 0 ∧ win0_0.index t (1 : Fin 2) = t.val / 4
    ∧ win0_1.index t (0 : Fin 2) = 0 ∧ win0_1.index t (1 : Fin 2) = t.val / 4
    ∧ win0_2.index t (0 : Fin 2) = 0 ∧ win0_2.index t (1 : Fin 2) = t.val % 4
    ∧ win0_3.index t (0 : Fin 2) = 0 ∧ win0_3.index t (1 : Fin 2) = t.val % 4
    ∧ win0_4.index t (0 : Fin 2) = 0 ∧ win0_4.index t (1 : Fin 2) = t.val / 4 :=
  (by decide +kernel : ∀ t : Fin grid0.N, _)

theorem tlt (t : Fin cfg0.N) : t.val < 128 := lt_of_lt_of_eq t.isLt (show cfg0.N = 128 from N_0)

/-- The row-tile blocks: point (b, p) of tile `t / 4` is column `256·(t/4) + p`. -/
theorem iblk0_apply (c : Dev nD) (t : Fin cfg0.N) (b : Fin 4) (p : Fin 256) :
    iblk m c 0 t (ix2 b p) = at2 (V m c main_arg2) b (256 * (t.val / 4) + p.val) := by
  obtain ⟨e0, e1, -⟩ := idx_facts t
  have ht := tlt t
  have hk : 256 * (t.val / 4) + p.val < 8192 := by have := p.isLt; omega
  unfold iblk at2; rw [dif_pos hk]
  show V m c main_arg2 (((cfg0.win 0).blk t).view.emb (ix2 b p)) = _
  refine congrArg (V m c main_arg2) (funext fun a => Fin.ext ?_)
  match a with
  | ⟨0, _⟩ => show win0_0.index t (0 : Fin 2) * 4 + 1 * b.val = b.val; omega
  | ⟨1, _⟩ => show win0_0.index t (1 : Fin 2) * 256 + 1 * p.val = 256 * (t.val / 4) + p.val; omega

theorem iblk1_apply (c : Dev nD) (t : Fin cfg0.N) (b : Fin 4) (p : Fin 256) :
    iblk m c 1 t (ix2 b p) = at2 (V m c main_arg1) b (256 * (t.val / 4) + p.val) := by
  obtain ⟨-, -, e0, e1, -⟩ := idx_facts t
  have ht := tlt t
  have hk : 256 * (t.val / 4) + p.val < 8192 := by have := p.isLt; omega
  unfold iblk at2; rw [dif_pos hk]
  show V m c main_arg1 (((cfg0.win 1).blk t).view.emb (ix2 b p)) = _
  refine congrArg (V m c main_arg1) (funext fun a => Fin.ext ?_)
  match a with
  | ⟨0, _⟩ => show win0_1.index t (0 : Fin 2) * 4 + 1 * b.val = b.val; omega
  | ⟨1, _⟩ => show win0_1.index t (1 : Fin 2) * 256 + 1 * p.val = 256 * (t.val / 4) + p.val; omega

/-- The column blocks: column `o` of block `t mod 4` is column `2048·(t mod 4) + o`. -/
theorem iblk2_apply (c : Dev nD) (t : Fin cfg0.N) (b : Fin 4) (o : Fin 2048) :
    iblk m c 2 t (ix2 b o) = at2 (V m c main_arg2) b (2048 * (t.val % 4) + o.val) := by
  obtain ⟨-, -, -, -, e0, e1, -⟩ := idx_facts t
  have hk : 2048 * (t.val % 4) + o.val < 8192 := by have := o.isLt; omega
  unfold iblk at2; rw [dif_pos hk]
  show V m c main_arg2 (((cfg0.win 2).blk t).view.emb (ix2 b o)) = _
  refine congrArg (V m c main_arg2) (funext fun a => Fin.ext ?_)
  match a with
  | ⟨0, _⟩ => show win0_2.index t (0 : Fin 2) * 4 + 1 * b.val = b.val; omega
  | ⟨1, _⟩ => show win0_2.index t (1 : Fin 2) * 2048 + 1 * o.val = 2048 * (t.val % 4) + o.val; omega

theorem iblk3_apply (c : Dev nD) (t : Fin cfg0.N) (b : Fin 4) (o : Fin 2048) :
    iblk m c 3 t (ix2 b o) = at2 (V m c main_arg1) b (2048 * (t.val % 4) + o.val) := by
  obtain ⟨-, -, -, -, -, -, e0, e1, -⟩ := idx_facts t
  have hk : 2048 * (t.val % 4) + o.val < 8192 := by have := o.isLt; omega
  unfold iblk at2; rw [dif_pos hk]
  show V m c main_arg1 (((cfg0.win 3).blk t).view.emb (ix2 b o)) = _
  refine congrArg (V m c main_arg1) (funext fun a => Fin.ext ?_)
  match a with
  | ⟨0, _⟩ => show win0_3.index t (0 : Fin 2) * 4 + 1 * b.val = b.val; omega
  | ⟨1, _⟩ => show win0_3.index t (1 : Fin 2) * 2048 + 1 * o.val = 2048 * (t.val % 4) + o.val; omega

/-- One grid step at the point's own blocks: the running count grows by the neighbours among the step's 2048 columns. -/
theorem updAt_apply (c : Dev nD) (t : Fin cfg0.N) (s : Vec Ideal S4x256 .f32) (b : Fin 4) (p : Fin 256) :
    updAt m c t s (ix2 b p) = s (ix2 b p)
      + ((ones (fun o => nearSeq (V m c main_arg2) (V m c main_arg1) b (256 * (t.val / 4) + p.val) (2048 * (t.val % 4) + o)) 2048 : ℝ) : EReal) := by
  unfold updAt
  refine upd_apply _ _ _ _ s b p _ fun o => ?_
  rw [iblk0_apply, iblk1_apply, iblk2_apply, iblk3_apply]
  rfl

/-- After the body at position `n` the running count at point (b, p) of the row tile is the number of neighbours among the
    columns seen so far: the first `2048·(n mod 4 + 1)`. -/
theorem accAt_apply (c : Dev nD) : ∀ (n : ℕ) (hn : n < cfg0.N) (b : Fin 4) (p : Fin 256),
    accAt m c n hn (ix2 b p)
      = ((ones (nearSeq (V m c main_arg2) (V m c main_arg1) b (256 * (n / 4) + p.val)) (2048 * (n % 4 + 1)) : ℝ) : EReal)
  | 0, hn, b, p => by
    show updAt m c ⟨0, hn⟩ (k0_pay3 (F := Ideal)) (ix2 b p) = _
    rw [updAt_apply, pay3_apply, zero_add]
    have e : ∀ f : ℕ → BitVec 1, ones (fun o => f (2048 * (0 % 4) + o)) 2048 = ones f (2048 * (0 % 4 + 1)) := fun f => by
      have h := ones_add f 0 2048
      have z : ones f 0 = 0 := rfl
      norm_num at h ⊢ <;> omega
    exact congrArg (fun k : ℕ => ((k : ℝ) : EReal)) (e _)
  | n + 1, hn, b, p => by
    by_cases h0 : (n + 1) % 4 = 0
    · rw [show accAt m c (n + 1) hn = updAt m c ⟨n + 1, hn⟩ (k0_pay3 (F := Ideal)) from if_pos h0, updAt_apply, pay3_apply, zero_add]
      have e : ∀ f : ℕ → BitVec 1, ones (fun o => f (2048 * ((n + 1) % 4) + o)) 2048 = ones f (2048 * ((n + 1) % 4 + 1)) := fun f => by
        have h := ones_add f 0 2048
        have z : ones f 0 = 0 := rfl
        rw [h0]; norm_num at h ⊢ <;> omega
      exact congrArg (fun k : ℕ => ((k : ℝ) : EReal)) (e _)
    · rw [show accAt m c (n + 1) hn = updAt m c ⟨n + 1, hn⟩ (accAt m c n (Nat.lt_of_succ_lt hn)) from if_neg h0, updAt_apply,
        accAt_apply c n (Nat.lt_of_succ_lt hn) b p, ← EReal.coe_add, ← Nat.cast_add]
      have hq : n / 4 = (n + 1) / 4 := by omega
      have hr : n % 4 + 1 = (n + 1) % 4 := by omega
      rw [hq, hr]
      have e := ones_add (nearSeq (V m c main_arg2) (V m c main_arg1) b (256 * ((n + 1) / 4) + p.val)) (2048 * ((n + 1) % 4)) 2048
      rw [show 2048 * ((n + 1) % 4 + 1) = 2048 * ((n + 1) % 4) + 2048 from by ring, e]

/-! ## From blocks to the array: what the kernel's result array holds after the run -/

/-- The kernel's result array: at point `r` of row `b` the 32-bit word of "more than eight neighbours". -/
def Gk (c : Dev nD) : S4x8192.Idx → BitVec 32 :=
  fun i => (keep (V m c main_arg2) (V m c main_arg1) (i 0) (i 1).val).setWidth 32

/-- What a row tile's last grid point writes back is its block of `Gk`. -/
theorem flushed_eq (c : Dev nD) (t : Fin cfg0.N) (hf : (cfg0.win 4).flush t = true) :
    (dats m 0 c).flushed 4 t = ((cfg0.win 4).blk t).view.read (Elt Ideal) (Gk m c) := by
  have h3 : t.val % 4 = 3 := (flush0_4 t).mp hf
  obtain ⟨-, -, -, -, -, -, -, -, e0, e1⟩ := idx_facts t
  show (cfg0.win 4).cut (grid0.coords t) ((dats m 0 c).after 4 t) = _
  rw [after_4]
  funext j
  obtain ⟨b, p, rfl⟩ : ∃ (b : Fin 4) (p : Fin 256), j = ix2 b p := ⟨j 0, j 1, eq_ix2 (n0 := 4) (n1 := 256) j⟩
  show (Ideal.cmp .ogt (accAt m c t.val t.isLt (ix2 b p)) (Ideal.ofBits .f32 0x41000000#32)).setWidth 32
    = Gk m c (((cfg0.win 4).blk t).view.emb (ix2 b p))
  rw [accAt_apply, gt8_real, h3]
  have k0 : ((cfg0.win 4).blk t).view.emb (ix2 b p) 0 = b :=
    Fin.ext (by show win0_4.index t (0 : Fin 2) * 4 + 1 * b.val = b.val; omega)
  have k1 : (((cfg0.win 4).blk t).view.emb (ix2 b p) 1).val = 256 * (t.val / 4) + p.val := by
    show win0_4.index t (1 : Fin 2) * 256 + 1 * p.val = _; omega
  unfold Gk keep cnt
  rw [k0, k1]

theorem mem_blk4 (t : Fin cfg0.N) (i : S4x8192.Idx) :
    i ∈ ((cfg0.win 4).blk t).view.set ↔ ∀ a : Fin 2, win0_4.index t a * S4x256.size a ≤ (i a).val ∧ (i a).val < win0_4.index t a * S4x256.size a + S4x256.size a := by
  show i ∈ ((View.whole main_v0).slice (win0_4.rect t)).set ↔ _
  rw [View.set_slice_whole, Rect.mem_set_unit]
  exact Iff.rfl

/-- Every point of the array lies in the block its row tile's last grid point writes back. -/
theorem cover4 (i : S4x8192.Idx) : ∃ t : Fin cfg0.N, (cfg0.win 4).flush t = true ∧ i ∈ ((cfg0.win 4).blk t).view.set := by
  have hi0 : (i 0).val < 4 := (i 0).isLt
  have hi1 : (i 1).val < 8192 := (i 1).isLt
  have hN : cfg0.N = 128 := N_0
  let t : Fin cfg0.N := ⟨4 * ((i 1).val / 256) + 3, by omega⟩
  have tv : t.val = 4 * ((i 1).val / 256) + 3 := rfl
  obtain ⟨-, -, -, -, -, -, -, -, e0, e1⟩ := idx_facts t
  refine ⟨t, (flush0_4 t).mpr (by omega), ?_⟩
  rw [mem_blk4]
  intro a
  match a with
  | ⟨0, _⟩ => show win0_4.index t (0 : Fin 2) * 4 ≤ (i 0).val ∧ (i 0).val < win0_4.index t (0 : Fin 2) * 4 + 4; omega
  | ⟨1, _⟩ => show win0_4.index t (1 : Fin 2) * 256 ≤ (i 1).val ∧ (i 1).val < win0_4.index t (1 : Fin 2) * 256 + 256; omega

/-- The kernel's result array after the run. -/
theorem final4 (c : Dev nD) : (dats m 0 c).arrAt 4 cfg0.N = Gk m c :=
  (dats m 0 c).arrAt_eq_of_cover 4 (Gk m c) (fun t hf => flushed_eq m c t hf) cover4

/-- The host operations after the region turn the kernel's words into the result: the mask, and more than eight neighbours. -/
theorem Wout_v3_eq (c : Dev nD) :
    Wout m c main_v3 = G (m ((c.tc : Thread nD τ).loc main_arg2)) (m ((c.tc : Thread nD τ).loc main_arg1)) (m ((c.tc : Thread nD τ).loc main_arg4)) := by
  rw [Wout_v3, final4]
  funext i
  show IntOp.andi (m ((c.tc : Thread nD τ).loc main_arg4) i) (IntOp.cmpi .sgt ((keep (V m c main_arg2) (V m c main_arg1) (i 0) (i 1).val).setWidth 32) 0#32) = _
  rw [pos_word]
  rfl

/-- The kernel's run at the ideal values: the result is `G` of the arguments, which end unchanged. -/
theorem run : θ_run (defs (F := Ideal)) (onTc (τ := τ) (main (F := Ideal))) ⟨m, fun _ => 0, ρ⟩ (fun r => ∀ c : Dev nD,
      r.2.mem ((c.tc : Thread nD τ).loc main_v3)
        = G (m ((c.tc : Thread nD τ).loc main_arg2)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (by decide)).trans (Wout_v3_eq m c),
     ((h c).2 main_arg0 (by decide)).trans (Wout_arg0 m c),
     ((h c).1 1).trans (arr_in m c 1 rfl _),
     ((h c).1 0).trans (arr_in m c 0 rfl _),
     ((h c).2 main_arg3 (by decide)).trans (Wout_arg3 m c),
     ((h c).2 main_arg4 (by decide)).trans (Wout_arg4 m c)⟩) (run_main m ρ)

end Cert.KernelIdeal.HandValue

end
-- ==== Proof.RValue.lean ====
/-
  The reference at the ideal values is the specification.

  Its neighbour count is a sum of 32-bit words 0/1 over all 8192 columns; read column by column the word is the
  comparison "squared distance at most the literal" of the specification, so the sum is the number of near columns as a
  word, and the signed comparison with eight reads that number.
-/
import proofs.«152392_j21878563405909_2_alg».proof.Proof.Gen.ReferenceIdeal.Read
import proofs.«152392_j21878563405909_2_alg».proof.Proof.Spec
import proofs.«152392_j21878563405909_2_alg».proof.Proof.LibRank3UnitAxes
import Idealize.ShloMosaic.Lib.ValueIdx
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Spec

/-- The pairwise verdict's 32-bit word at (b, r, k): point k is within the radius of point r, in row b. -/
theorem v15_apply (x1 x2 : (⟨S4x8192, .f32⟩ : BufTy).Contents (Elt Ideal)) (b : Fin 4) (r k : Fin 8192) :
    val_main_v15 (F := Ideal) x1 x2 (ix3 b r k)
      = (nearW (x2 (ix2 b r)) (x1 (ix2 b r)) (x2 (ix2 b k)) (x1 (ix2 b k))).setWidth 32 := by
  have e1 : idx_main_v0 (idx_main_v2 (ix3 b r k)) = ix2 b r :=
    funext fun a => Fin.ext (by match a with | ⟨0, _⟩ => rfl | ⟨1, _⟩ => rfl)
  have e2 : idx_main_v1 (idx_main_v3 (ix3 b r k)) = ix2 b k :=
    funext fun a => Fin.ext (by match a with | ⟨0, _⟩ => rfl | ⟨1, _⟩ => rfl)
  have e3 : idx_main_v5 (idx_main_v7 (ix3 b r k)) = ix2 b r :=
    funext fun a => Fin.ext (by match a with | ⟨0, _⟩ => rfl | ⟨1, _⟩ => rfl)
  have e4 : idx_main_v6 (idx_main_v8 (ix3 b r k)) = ix2 b k :=
    funext fun a => Fin.ext (by match a with | ⟨0, _⟩ => rfl | ⟨1, _⟩ => rfl)
  rw [val_main_v15_apply, val_main_v14_apply, val_main_v12_apply, val_main_v10_apply, val_main_v11_apply, val_main_v4_apply,
    val_main_v9_apply, val_main_v2_apply, val_main_v3_apply, val_main_v7_apply, val_main_v8_apply, val_main_v0_apply,
    val_main_v1_apply, val_main_v5_apply, val_main_v6_apply, val_main_v13_apply, val_main_cst_apply, e1, e2, e3, e4]
  rfl

/-- The reference's count at (b, r) is the number of near columns, as a 32-bit word. -/
theorem v16_apply (x1 x2 : (⟨S4x8192, .f32⟩ : BufTy).Contents (Elt Ideal)) (b : Fin 4) (r : Fin 8192) :
    val_main_v16 (F := Ideal) x1 x2 (ix2 b r) = BitVec.ofNat 32 (cnt x2 x1 b r.val) := by
  have hred : S4x8192x8192.Reduces [2] S4x8192 := by decide
  unfold val_main_v16
  rw [Host.reduce_eq_fold_single IntOp.addi _ _ Facts₀.reducesTo_S4x8192x8192_S4x8192_d2 hred Facts₀.h_S_ (ix2 b r)]
  have hl : ∀ l : Fin 8192, val_main_v15 (F := Ideal) x1 x2 (hred.lift (ix2 b r) l) = (nearSeq x2 x1 b r.val l.val).setWidth 32 :=
    fun l => by
      rw [Cert.Rank3UnitAxes.lift_last hred b r l, v15_apply]
      unfold nearSeq
      rw [at2_lt x2 b r, at2_lt x1 b r, at2_lt x2 b l, at2_lt x1 b l]
  have hsrc : (val_main_v15 (F := Ideal) x1 x2 ∘ hred.lift (ix2 b r)) = fun l : Fin 8192 => (nearSeq x2 x1 b r.val l.val).setWidth 32 :=
    funext hl
  rw [hsrc]
  exact fold_words _ 8192

/-- The reference's result is the specification. -/
theorem result_eq (x1 x2 : (⟨S4x8192, .f32⟩ : BufTy).Contents (Elt Ideal)) (x4 : (⟨S4x8192, .i1⟩ : BufTy).Contents (Elt Ideal)) :
    val_main_v19 (F := Ideal) x1 x2 x4 = G x2 x1 x4 := by
  funext i
  obtain ⟨b, r, rfl⟩ : ∃ (b : Fin 4) (r : Fin 8192), i = ix2 b r := ⟨i 0, i 1, eq_ix2 (n0 := 4) (n1 := 8192) i⟩
  rw [val_main_v19_apply, val_main_v18_apply, v16_apply, val_main_v17_apply, val_main_c_0_apply, gt8_word (cnt x2 x1 b r.val) (ones_le _ _)]
  rfl

end Cert.ReferenceIdeal.RefValue

end
-- ==== Proof.lean ====
/-
  A radius filter over four rows of 8192 points: a point keeps its place in the mask when more than eight points of its
  row (itself included) lie within the radius of it.

  The kernel walks a grid of 32 row tiles by 4 column blocks.  For a row tile of 256 points it keeps, in a scratch buffer
  carried from one column block to the next, the running number of neighbours seen so far: reset at the tile's first
  column block, increased at each block by the neighbours among that block's 2048 columns (counted 512 columns at a
  time), and at the last block compared with eight and written out as a word 0/1.  The host then turns the word into a
  bit and ANDs the incoming mask.  The reference compares all pairs at once, adds the verdicts as 32-bit words along
  each row and compares the sum with eight.

  At the ideal values both counts are the NUMBER of columns within the radius — a natural number at most 8192 — read once
  as a real and once as a 32-bit word; "greater than eight" says the same of either.  No rounding enters: the two
  programs subtract, square and add the same coordinates and compare with the same literal.

  The x and y arrays are each handed to the kernel twice, once cut into row tiles and once into column blocks; the two
  windows on one array hold it half and half while the kernel runs.
-/
import proofs.«152392_j21878563405909_2_alg».proof.Defs
import proofs.«152392_j21878563405909_2_alg».proof.Proof.Gen.Kernel
import proofs.«152392_j21878563405909_2_alg».proof.Proof.Gen.Kernel.Skeleton
import proofs.«152392_j21878563405909_2_alg».proof.Proof.Gen.Kernel.Launch
import proofs.«152392_j21878563405909_2_alg».proof.Proof.Gen.Kernel.Points
import proofs.«152392_j21878563405909_2_alg».proof.Proof.Gen.KernelIdeal
import proofs.«152392_j21878563405909_2_alg».proof.Proof.Gen.KernelIdeal.Skeleton
import proofs.«152392_j21878563405909_2_alg».proof.Proof.Gen.KernelIdeal.Launch
import proofs.«152392_j21878563405909_2_alg».proof.Proof.Gen.KernelIdeal.Points
import proofs.«152392_j21878563405909_2_alg».proof.Proof.Gen.ReferenceIdeal
import proofs.«152392_j21878563405909_2_alg».proof.Proof.Gen.ReferenceIdeal.Run
import proofs.«152392_j21878563405909_2_alg».proof.Proof.Gen.ReferenceIdeal.Read
import proofs.«152392_j21878563405909_2_alg».proof.Proof.Gen.Pre_finite_inputs
import proofs.«152392_j21878563405909_2_alg».proof.Proof.BLaunch
import proofs.«152392_j21878563405909_2_alg».proof.Proof.KValue
import proofs.«152392_j21878563405909_2_alg».proof.Proof.RValue
import Idealize.ShloMosaic.Adequacy
import Idealize.ShloMosaic.Init

noncomputable section

namespace Cert.Proof

open Idealize.ShloMosaic Idealize.ShloMosaic.TcCoe Idealize.SL.Sem

/-- The kernel as printed runs to its end and leaves its arguments as they were. -/
theorem frame_k : Cert.frame_Kernel (hKernel := Cert.Kernel.Gen.facts) (hPre_finite_inputs := Cert.Pre_finite_inputs.Gen.facts) :=
  fun m ρ _ => Cert.Kernel.Hand.frame m ρ

/-- So does the kernel read at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2)
    (Cert.ReferenceIdeal.Value.run (F := Ideal) m ρ)

/-- At the ideal values, from memories that agree on the arguments, both programs end with the mask ANDed with
    "more than eight neighbours": the kernel's running count and the reference's word sum are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => m ((c.tc : Thread _ _).loc Cert.KernelIdeal.main_arg0), fun c => m ((c.tc : Thread _ _).loc Cert.KernelIdeal.main_arg1),
    fun c => m ((c.tc : Thread _ _).loc Cert.KernelIdeal.main_arg2), fun c => m ((c.tc : Thread _ _).loc Cert.KernelIdeal.main_arg3),
    fun c => Cert.Spec.G (m ((c.tc : Thread _ _).loc Cert.KernelIdeal.main_arg2)) (m ((c.tc : Thread _ _).loc Cert.KernelIdeal.main_arg1))
      (m ((c.tc : Thread _ _).loc Cert.KernelIdeal.main_arg4)), ?_, ?_⟩
  · refine (θ_run Cert.KernelIdeal.defs _ _).mono (fun _ h c => ?_) (Cert.KernelIdeal.HandValue.run m ρ)
    obtain ⟨h3, k0, k1, k2, k3, k4⟩ := h c
    exact ⟨k0, k1, k2, k3, h3, k0, k1, k2, k3, k4⟩
  · refine (θ_run Cert.ReferenceIdeal.defs _ _).mono (fun _ h c => ?_) (Cert.ReferenceIdeal.Value.run (F := Ideal) m' ρ')
    obtain ⟨h0, h1, h2, h3, h19, k0, k1, k2, k3, k4⟩ := h c
    obtain ⟨a0, a1, a2, a3, a4⟩ := hagree c
    refine ⟨h0.trans a0, h1.trans a1, h2.trans a2, h3.trans a3, ?_, k0, k1, k2, k3, k4⟩
    rw [h19, Cert.ReferenceIdeal.Read.val_main_v19_eq, Cert.ReferenceIdeal.RefValue.result_eq, a1, a2, a4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
